-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S_ : Shape := ⟨0, ![]⟩

class Facts : Prop where
  bcast_S_S4096x30000 : S_.BroadcastsInDim S4096x30000 (![] : Fin 0 → Fin S4096x30000.rank)
  reducesTo_S4096x30000_S_d0_1 : S4096x30000.ReducesTo [0, 1] S_
  h_S_ : 0 < S_.numel
  bcast_S_S3 : S_.BroadcastsInDim S3 (![] : Fin 0 → Fin S3.rank)
  reducesTo_S3_S_d0 : S3.ReducesTo [0] S_
  bcast_S_S200000x64 : S_.BroadcastsInDim S200000x64 (![] : Fin 0 → Fin S200000x64.rank)
  reducesTo_S200000x64_S_d0_1 : S200000x64.ReducesTo [0, 1] S_
  bcast_S_S64x30000 : S_.BroadcastsInDim S64x30000 (![] : Fin 0 → Fin S64x30000.rank)
  reducesTo_S64x30000_S_d0_1 : S64x30000.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S64x30000 .f32) (main_arg5 : FVec F S4096x32 .f32) (main_arg6 : FVec F S4096x32 .f32) (main_v13 : IVec S_ 1) (main_v16 : IVec S200000x64 1) : IVec S_ 1 :=
  let main_c_5 : IVec S_ 1 := constantI S_ 1 1#1
  let main_v17 : IVec S_ 1 := (fun x v => Host.reduce IntOp.andi x v reducesTo_S200000x64_S_d0_1 h_S_) main_v16 main_c_5
  let main_v18 : IVec S_ 1 := andi main_v13 main_v17
  let main_v19 : FVec F S64x30000 .f32 := Host.absf main_arg4
  let main_cst_6 : FVec F S_ .f32 := constant S_ .f32 0x7F800000#32
  let main_v20 : FVec F S64x30000 .f32 := broadcastInDim S64x30000 ![] bcast_S_S64x30000 main_cst_6
  let main_v21 : IVec S64x30000 1 := cmpf .olt main_v19 main_v20
  let main_c_7 : IVec S_ 1 := constantI S_ 1 1#1
  let main_v22 : IVec S_ 1 := (fun x v => Host.reduce IntOp.andi x v reducesTo_S64x30000_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  main_v33

def fn {F : FTy → Type} [FloatOps F] (main_arg0 : FVec F S4096x30000 .f32) (main_arg1 : FVec F S4096x30000 .f32) (main_arg2 : FVec F S3 .f32) (main_arg3 : FVec F S200000x64 .f32) (main_arg4 : FVec F S64x30000 .f32) (main_arg5 : FVec F S4096x32 .f32) (main_arg6 : FVec F S4096x32 .f32) (main_arg7 : IVec S4096 32) (main_arg8 : IVec S4096 32) (main_arg9 : IVec S4096x32 32) (main_arg10 : IVec S4096x32 32) : IVec S_ 1 :=
  let main_v0 : FVec F S4096x30000 .f32 := Host.absf main_arg0
  let main_cst : FVec F S_ .f32 := constant S_ .f32 0x7F800000#32
  let main_v1 : FVec F S4096x30000 .f32 := broadcastInDim S4096x30000 ![] bcast_S_S4096x30000 main_cst
  let main_v2 : IVec S4096x30000 1 := cmpf .olt main_v0 main_v1
  let main_c : IVec S_ 1 := constantI S_ 1 1#1
  let main_v3 : IVec S_ 1 := (fun x v => Host.reduce IntOp.andi x v reducesTo_S4096x30000_S_d0_1 h_S_) main_v2 main_c
  let main_v4 : FVec F S4096x30000 .f32 := Host.absf main_arg1
  let main_cst_0 : FVec F S_ .f32 := constant S_ .f32 0x7F800000#32
  let main_v5 : FVec F S4096x30000 .f32 := broadcastInDim S4096x30000 ![] bcast_S_S4096x30000 main_cst_0
  let main_v6 : IVec S4096x30000 1 := cmpf .olt main_v4 main_v5
  let main_c_1 : IVec S_ 1 := constantI S_ 1 1#1
  let main_v7 : IVec S_ 1 := (fun x v => Host.reduce IntOp.andi x v reducesTo_S4096x30000_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S200000x64 .f32 := Host.absf main_arg3
  let main_cst_4 : FVec F S_ .f32 := constant S_ .f32 0x7F800000#32
  let main_v15 : FVec F S200000x64 .f32 := broadcastInDim S200000x64 ![] bcast_S_S200000x64 main_cst_4
  let main_v16 : IVec S200000x64 1 := cmpf .olt main_v14 main_v15
  fn_part1 (F := F) main_arg4 main_arg5 main_arg6 main_v13 main_v16
-- ==== Kernel.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S100000x128 : Shape := ⟨2, ![100000, 128]⟩
abbrev S15000x128 : Shape := ⟨2, ![15000, 128]⟩
abbrev S20x8x128 : Shape := ⟨3, ![20, 8, 128]⟩
abbrev S5000x128 : Shape := ⟨2, ![5000, 128]⟩
abbrev S1x8x128 : Shape := ⟨3, ![1, 8, 128]⟩
abbrev S1x5000x128 : Shape := ⟨3, ![1, 5000, 128]⟩
abbrev S1 : Shape := ⟨1, ![1]⟩
abbrev S1x1x1 : Shape := ⟨3, ![1, 1, 1]⟩
abbrev S8x128 : Shape := ⟨2, ![8, 128]⟩
abbrev S_ : Shape := ⟨0, ![]⟩
abbrev S15x8x128 : Shape := ⟨3, ![15, 8, 128]⟩
abbrev S1000x128 : Shape := ⟨2, ![1000, 128]⟩
abbrev S1x1000x128 : Shape := ⟨3, ![1, 1000, 128]⟩
abbrev S4096x1 : Shape := ⟨2, ![4096, 1]⟩
abbrev S4096x64 : Shape := ⟨2, ![4096, 64]⟩
abbrev S4096x32x1 : Shape := ⟨3, ![4096, 32, 1]⟩
abbrev S4096x32x64 : Shape := ⟨3, ![4096, 32, 64]⟩
abbrev S4096x1x64 : Shape := ⟨3, ![4096, 1, 64]⟩
abbrev S30000x64 : Shape := ⟨2, ![30000, 64]⟩
abbrev S64x8x128 : Shape := ⟨3, ![64, 8, 128]⟩
abbrev S1x64x30000 : Shape := ⟨3, ![1, 64, 30000]⟩

abbrev nBuf : Space → Nat
  | .hbm => 95
  | .vmem => 14
  | .smem => 0
  | _ => 0

abbrev bufTy : (tb : Table) → Fin (tcTables nBuf tb) → BufTy
  | .hbm, ⟨0, _⟩ => ⟨S4096x30000, .f32⟩
  | .hbm, ⟨1, _⟩ => ⟨S4096x30000, .f32⟩
  | .hbm, ⟨2, _⟩ => ⟨S3, .f32⟩
  | .hbm, ⟨3, _⟩ => ⟨S200000x64, .f32⟩
  | .hbm, ⟨4, _⟩ => ⟨S64x30000, .f32⟩
  | .hbm, ⟨5, _⟩ => ⟨S4096x32, .f32⟩
  | .hbm, ⟨6, _⟩ => ⟨S4096x32, .f32⟩
  | .hbm, ⟨7, _⟩ => ⟨S4096, .i32⟩
  | .hbm, ⟨8, _⟩ => ⟨S4096, .i32⟩
  | .hbm, ⟨9, _⟩ => ⟨S4096x32, .i32⟩
  | .hbm, ⟨10, _⟩ => ⟨S4096x32, .i32⟩
  | .hbm, ⟨11, _⟩ => ⟨S100000x128, .f32⟩
  | .hbm, ⟨12, _⟩ => ⟨S15000x128, .f32⟩
  | .hbm, ⟨13, _⟩ => ⟨S20x8x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S15x8x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x64, .f32⟩
  | .hbm, ⟨31, _⟩ => ⟨S_, .i32⟩
  | .hbm, ⟨32, _⟩ => ⟨S4096x32, .i32⟩
  | .hbm, ⟨33, _⟩ => ⟨S4096x32, .i1⟩
  | .hbm, ⟨34, _⟩ => ⟨S_, .i32⟩
  | .hbm, ⟨35, _⟩ => ⟨S4096x32, .i32⟩
  | .hbm, ⟨36, _⟩ => ⟨S4096x32, .i32⟩
  | .hbm, ⟨37, _⟩ => ⟨S4096x32, .i32⟩
  | .hbm, ⟨38, _⟩ => ⟨S4096x32x1, .i32⟩
  | .hbm, ⟨39, _⟩ => ⟨S4096x32x64, .f32⟩
  | .hbm, ⟨40, _⟩ => ⟨S4096x1x64, .f32⟩
  | .hbm, ⟨41, _⟩ => ⟨S4096x32x64, .f32⟩
  | .hbm, ⟨42, _⟩ => ⟨S4096x32x64, .f32⟩
  | .hbm, ⟨43, _⟩ => ⟨S4096x32x64, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S_, .f32⟩
  | .hbm, ⟨49, _⟩ => ⟨S_, .f32⟩
  | .hbm, ⟨50, _⟩ => ⟨S30000x64, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x64, .f32⟩
  | .hbm, ⟨60, _⟩ => ⟨S_, .i32⟩
  | .hbm, ⟨61, _⟩ => ⟨S4096x32, .i32⟩
  | .hbm, ⟨62, _⟩ => ⟨S4096x32, .i1⟩
  | .hbm, ⟨63, _⟩ => ⟨S_, .i32⟩
  | .hbm, ⟨64, _⟩ => ⟨S4096x32, .i32⟩
  | .hbm, ⟨65, _⟩ => ⟨S4096x32, .i32⟩
  | .hbm, ⟨66, _⟩ => ⟨S4096x32, .i32⟩
  | .hbm, ⟨67, _⟩ => ⟨S4096x32x1, .i32⟩
  | .hbm, ⟨68, _⟩ => ⟨S4096x32x64, .f32⟩
  | .hbm, ⟨69, _⟩ => ⟨S4096x1x64, .f32⟩
  | .hbm, ⟨70, _⟩ => ⟨S4096x32x64, .f32⟩
  | .hbm, ⟨71, _⟩ => ⟨S4096x32x64, .f32⟩
  | .hbm, ⟨72, _⟩ => ⟨S4096x32x64, .f32⟩
  | .hbm, ⟨73, _⟩ => ⟨S_, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S_, .f32⟩
  | .hbm, ⟨78, _⟩ => ⟨S_, .f32⟩
  | .hbm, ⟨79, _⟩ => ⟨S64x8x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S1x8x128, .f32⟩
  | .local _ .vmem, ⟨3, _⟩ => ⟨S1x8x128, .f32⟩
  | .local _ .vmem, ⟨4, _⟩ => ⟨S1000x128, .f32⟩
  | .local _ .vmem, ⟨5, _⟩ => ⟨S1000x128, .f32⟩
  | .local _ .vmem, ⟨6, _⟩ => ⟨S1x8x128, .f32⟩
  | .local _ .vmem, ⟨7, _⟩ => ⟨S1x8x128, .f32⟩
  | .local _ .vmem, ⟨8, _⟩ => ⟨S64x30000, .f32⟩
  | .local _ .vmem, ⟨9, _⟩ => ⟨S64x30000, .f32⟩
  | .local _ .vmem, ⟨10, _⟩ => ⟨S64x30000, .f32⟩
  | .local _ .vmem, ⟨11, _⟩ => ⟨S64x30000, .f32⟩
  | .local _ .vmem, ⟨12, _⟩ => ⟨S1x8x128, .f32⟩
  | .local _ .vmem, ⟨13, _⟩ => ⟨S1x8x128, .f32⟩
  | _, _ => ⟨S4096x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x30000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x30000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S200000x64_S100000x128 : S200000x64.ShapeCasts S100000x128
  shapeCasts_S64x30000_S15000x128 : S64x30000.ShapeCasts S15000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S5000x128_S1x5000x128 : S5000x128.ShapeCasts S1x5000x128
  reduces_S1x5000x128_S1 : S1x5000x128.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S20x8x128_S_d0_1_2 : S20x8x128.ReducesTo [0, 1, 2] S_
  h_S_ : 0 < S_.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S1x1000x128 : S1000x128.ShapeCasts S1x1000x128
  reduces_S1x1000x128_S1 : S1x1000x128.Reduces [1, 2] S1
  reducesTo_S15x8x128_S_d0_1_2 : S15x8x128.ReducesTo [0, 1, 2] S_
  bcast_S_S4096 : S_.BroadcastsInDim S4096 (![] : Fin 0 → Fin S4096.rank)
  bcast_S4096_S4096x1_0 : S4096.BroadcastsInDim S4096x1 (![0] : Fin 1 → Fin S4096x1.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x64_S4096x1x64_0_2 : S4096x64.BroadcastsInDim S4096x1x64 (![0, 2] : Fin 2 → Fin S4096x1x64.rank)
  bcast_S4096x1x64_S4096x32x64_0_1_2 : S4096x1x64.BroadcastsInDim S4096x32x64 (![0, 1, 2] : Fin 3 → Fin S4096x32x64.rank)
  reducesTo_S4096x32x64_S4096x32_d2 : S4096x32x64.ReducesTo [2] S4096x32
  reducesTo_S4096x32_S_d0_1 : S4096x32.ReducesTo [0, 1] S_
  transposes_S64x30000_S30000x64_1_0 : S64x30000.Transposes [1, 0] S30000x64
  inb_S64x30000_S64x30000_0_0 : ∀ a, (![0, 0] : Fin 2 → Nat) a + S64x30000.size a ≤ S64x30000.size a
  h_S64x30000 : 0 < S64x30000.numel
  shapeCasts_S64x30000_S1x64x30000 : S64x30000.ShapeCasts S1x64x30000
  reduces_S1x64x30000_S1 : S1x64x30000.Reduces [1, 2] S1
  reducesTo_S64x8x128_S_d0_1_2 : S64x8x128.ReducesTo [0, 1, 2] S_
  slices_S3_S1_0 : S3.Slices ![0] S1
  shapeCasts_S1_S_ : S1.ShapeCasts S_
  slices_S3_S1_1 : S3.Slices ![1] S1
  slices_S3_S1_2 : S3.Slices ![2] S1
  gather_S200000x64_S4096x1_S4096x64_1_0_n_n_0_1_164_wf : GatherDims.WF S200000x64 S4096x1 S4096x64 [1] [0] [] [0] [] 1 ![1, 64]
  gather_S200000x64_S4096x32x1_S4096x32x64_2_0_n_n_0_2_164_wf : GatherDims.WF S200000x64 S4096x32x1 S4096x32x64 [2] [0] [] [0] [] 2 ![1, 64]
  gather_S30000x64_S4096x1_S4096x64_1_0_n_n_0_1_164_wf : GatherDims.WF S30000x64 S4096x1 S4096x64 [1] [0] [] [0] [] 1 ![1, 64]
  gather_S30000x64_S4096x32x1_S4096x32x64_2_0_n_n_0_2_164_wf : GatherDims.WF S30000x64 S4096x32x1 S4096x32x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S20x8x128.size a
  hwx0_1 : ∀ i : grid0.Coords, EltTy.bits .f32 = 32 ∨ (Rect.block (s := S20x8x128) S1x8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S15000x128.size a
  hwx1_0 : ∀ i : grid1.Coords, EltTy.bits .f32 = 32 ∨ (Rect.block (s := S15000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x128.size a ≤ S15x8x128.size a
  hwx1_1 : ∀ i : grid1.Coords, EltTy.bits .f32 = 32 ∨ (Rect.block (s := S15x8x128) S1x8x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x30000.size a ≤ S4096x30000.size a
  hwx2_0 : ∀ i : grid2.Coords, EltTy.bits .f32 = 32 ∨ (Rect.block (s := S4096x30000) S64x30000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x30000.size a ≤ S4096x30000.size a
  hwx2_1 : ∀ i : grid2.Coords, EltTy.bits .f32 = 32 ∨ (Rect.block (s := S4096x30000) S64x30000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x128.size a ≤ S64x8x128.size a
  hwx2_2 : ∀ i : grid2.Coords, EltTy.bits .f32 = 32 ∨ (Rect.block (s := S64x8x128) S1x8x128.size (cc2_transform_2 i) (hinb2_2 i)).WholeWords (EltTy.packing .f32)

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S200000x64_S4096x32x1_S4096x32x64_2_0_n_n_0_2_164 : GatherDims S200000x64 S4096x32x1 S4096x32x64 where
  offsetDims := [2]
  collapsedSliceDims := [0]
  operandBatchingDims := []
  startIndicesBatchingDims := []
  startIndexMap := [0]
  indexVectorDim := 2
  sliceSizes := ![1, 64]
  wf := gather_S200000x64_S4096x32x1_S4096x32x64_2_0_n_n_0_2_164_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf
def gather_S30000x64_S4096x32x1_S4096x32x64_2_0_n_n_0_2_164 : GatherDims S30000x64 S4096x32x1 S4096x32x64 where
  offsetDims := [2]
  collapsedSliceDims := [0]
  operandBatchingDims := []
  startIndicesBatchingDims := []
  startIndexMap := [0]
  indexVectorDim := 2
  sliceSizes := ![1, 64]
  wf := gather_S30000x64_S4096x32x1_S4096x32x64_2_0_n_n_0_2_164_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x8x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S64x30000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S64x30000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x32x1 : Shape := ⟨3, ![4096, 32, 1]⟩
abbrev S4096x32x64 : Shape := ⟨3, ![4096, 32, 64]⟩
abbrev S4096x1x64 : Shape := ⟨3, ![4096, 1, 64]⟩
abbrev S64x4096 : Shape := ⟨2, ![64, 4096]⟩
abbrev S64x4096x32 : Shape := ⟨3, ![64, 4096, 32]⟩
abbrev S1 : Shape := ⟨1, ![1]⟩

abbrev nBuf : Space → Nat
  | .hbm => 101
  | .vmem => 0
  | .smem => 0
  | _ => 0

abbrev bufTy : (tb : Table) → Fin (tcTables nBuf tb) → BufTy
  | .hbm, ⟨0, _⟩ => ⟨S4096x30000, .f32⟩
  | .hbm, ⟨1, _⟩ => ⟨S4096x30000, .f32⟩
  | .hbm, ⟨2, _⟩ => ⟨S3, .f32⟩
  | .hbm, ⟨3, _⟩ => ⟨S200000x64, .f32⟩
  | .hbm, ⟨4, _⟩ => ⟨S64x30000, .f32⟩
  | .hbm, ⟨5, _⟩ => ⟨S4096x32, .f32⟩
  | .hbm, ⟨6, _⟩ => ⟨S4096x32, .f32⟩
  | .hbm, ⟨7, _⟩ => ⟨S4096, .i32⟩
  | .hbm, ⟨8, _⟩ => ⟨S4096, .i32⟩
  | .hbm, ⟨9, _⟩ => ⟨S4096x32, .i32⟩
  | .hbm, ⟨10, _⟩ => ⟨S4096x32, .i32⟩
  | .hbm, ⟨11, _⟩ => ⟨S_, .f32⟩
  | .hbm, ⟨12, _⟩ => ⟨S200000x64, .f32⟩
  | .hbm, ⟨13, _⟩ => ⟨S200000x64, .f32⟩
  | .hbm, ⟨14, _⟩ => ⟨S200000x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64x30000, .f32⟩
  | .hbm, ⟨20, _⟩ => ⟨S64x30000, .f32⟩
  | .hbm, ⟨21, _⟩ => ⟨S64x30000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x64, .f32⟩
  | .hbm, ⟨35, _⟩ => ⟨S_, .i32⟩
  | .hbm, ⟨36, _⟩ => ⟨S4096x32, .i32⟩
  | .hbm, ⟨37, _⟩ => ⟨S4096x32, .i1⟩
  | .hbm, ⟨38, _⟩ => ⟨S_, .i32⟩
  | .hbm, ⟨39, _⟩ => ⟨S4096x32, .i32⟩
  | .hbm, ⟨40, _⟩ => ⟨S4096x32, .i32⟩
  | .hbm, ⟨41, _⟩ => ⟨S4096x32, .i32⟩
  | .hbm, ⟨42, _⟩ => ⟨S4096x32x1, .i32⟩
  | .hbm, ⟨43, _⟩ => ⟨S4096x32x64, .f32⟩
  | .hbm, ⟨44, _⟩ => ⟨S4096x1x64, .f32⟩
  | .hbm, ⟨45, _⟩ => ⟨S4096x32x64, .f32⟩
  | .hbm, ⟨46, _⟩ => ⟨S4096x32x64, .f32⟩
  | .hbm, ⟨47, _⟩ => ⟨S4096x32x64, .f32⟩
  | .hbm, ⟨48, _⟩ => ⟨S_, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S64x4096, .f32⟩
  | .hbm, ⟨63, _⟩ => ⟨S4096x64, .f32⟩
  | .hbm, ⟨64, _⟩ => ⟨S_, .i32⟩
  | .hbm, ⟨65, _⟩ => ⟨S4096x32, .i32⟩
  | .hbm, ⟨66, _⟩ => ⟨S4096x32, .i1⟩
  | .hbm, ⟨67, _⟩ => ⟨S_, .i32⟩
  | .hbm, ⟨68, _⟩ => ⟨S4096x32, .i32⟩
  | .hbm, ⟨69, _⟩ => ⟨S4096x32, .i32⟩
  | .hbm, ⟨70, _⟩ => ⟨S4096x32, .i32⟩
  | .hbm, ⟨71, _⟩ => ⟨S4096x32x1, .i32⟩
  | .hbm, ⟨72, _⟩ => ⟨S64x4096x32, .f32⟩
  | .hbm, ⟨73, _⟩ => ⟨S4096x32x64, .f32⟩
  | .hbm, ⟨74, _⟩ => ⟨S4096x1x64, .f32⟩
  | .hbm, ⟨75, _⟩ => ⟨S4096x32x64, .f32⟩
  | .hbm, ⟨76, _⟩ => ⟨S4096x32x64, .f32⟩
  | .hbm, ⟨77, _⟩ => ⟨S4096x32x64, .f32⟩
  | .hbm, ⟨78, _⟩ => ⟨S_, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S_, .f32⟩
  | .hbm, ⟨83, _⟩ => ⟨S_, .f32⟩
  | .hbm, ⟨84, _⟩ => ⟨S4096x30000, .f32⟩
  | .hbm, ⟨85, _⟩ => ⟨S4096x30000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S1, .f32⟩
  | .hbm, ⟨98, _⟩ => ⟨S_, .f32⟩
  | .hbm, ⟨99, _⟩ => ⟨S_, .f32⟩
  | .hbm, ⟨100, _⟩ => ⟨S_, .f32⟩
  | _, _ => ⟨S4096x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_v0 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v1 : Ref sig .tc := ⟨.hbm, 17, rfl⟩
abbrev main_call2_cst : Ref sig .tc := ⟨.hbm, 18, rfl⟩
abbrev main_call2_v0 : Ref sig .tc := ⟨.hbm, 19, rfl⟩
abbrev main_v2 : Ref sig .tc := ⟨.hbm, 20, rfl⟩
abbrev main_call3_v0 : Ref sig .tc := ⟨.hbm, 21, rfl⟩
abbrev main_call3_cst : Ref sig .tc := ⟨.hbm, 22, rfl⟩
abbrev main_call3_v1 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_call4_v0 : Ref sig .tc := ⟨.hbm, 85, rfl⟩
abbrev main_call4_cst : Ref sig .tc := ⟨.hbm, 86, rfl⟩
abbrev main_call4_v1 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]

class Facts₀ : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x30000 : S_.BroadcastsInDim S64x30000 (![] : Fin 0 → Fin S64x30000.rank)
  reducesTo_S64x30000_S_d0_1 : S64x30000.ReducesTo [0, 1] S_
  bcast_S_S4096 : S_.BroadcastsInDim S4096 (![] : Fin 0 → Fin S4096.rank)
  bcast_S4096_S4096x1_0 : S4096.BroadcastsInDim S4096x1 (![0] : Fin 1 → Fin S4096x1.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x64_S4096x1x64_0_2 : S4096x64.BroadcastsInDim S4096x1x64 (![0, 2] : Fin 2 → Fin S4096x1x64.rank)
  bcast_S4096x1x64_S4096x32x64_0_1_2 : S4096x1x64.BroadcastsInDim S4096x32x64 (![0, 1, 2] : Fin 3 → Fin S4096x32x64.rank)
  reducesTo_S4096x32x64_S4096x32_d2 : S4096x32x64.ReducesTo [2] S4096x32
  reducesTo_S4096x32_S_d0_1 : S4096x32.ReducesTo [0, 1] S_
  transposes_S64x4096_S4096x64_1_0 : S64x4096.Transposes [1, 0] S4096x64
  transposes_S64x4096x32_S4096x32x64_1_2_0 : S64x4096x32.Transposes [1, 2, 0] S4096x32x64
  reducesTo_S4096x30000_S_d0_1 : S4096x30000.ReducesTo [0, 1] S_
  slices_S3_S1_0 : S3.Slices ![0] S1
  shapeCasts_S1_S_ : S1.ShapeCasts S_
  slices_S3_S1_1 : S3.Slices ![1] S1
  slices_S3_S1_2 : S3.Slices ![2] S1
  gather_S200000x64_S4096x1_S4096x64_1_0_n_n_0_1_164_wf : GatherDims.WF S200000x64 S4096x1 S4096x64 [1] [0] [] [0] [] 1 ![1, 64]
  gather_S200000x64_S4096x32x1_S4096x32x64_2_0_n_n_0_2_164_wf : GatherDims.WF S200000x64 S4096x32x1 S4096x32x64 [2] [0] [] [0] [] 2 ![1, 64]
  gather_S64x30000_S4096x1_S64x4096_0_1_n_n_1_1_641_wf : GatherDims.WF S64x30000 S4096x1 S64x4096 [0] [1] [] [1] [] 1 ![64, 1]
  gather_S64x30000_S4096x32x1_S64x4096x32_0_1_n_n_1_2_641_wf : GatherDims.WF S64x30000 S4096x32x1 S64x4096x32 [0] [1] [] [1] [] 2 ![64, 1]

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S200000x64_S4096x32x1_S4096x32x64_2_0_n_n_0_2_164 : GatherDims S200000x64 S4096x32x1 S4096x32x64 where
  offsetDims := [2]
  collapsedSliceDims := [0]
  operandBatchingDims := []
  startIndicesBatchingDims := []
  startIndexMap := [0]
  indexVectorDim := 2
  sliceSizes := ![1, 64]
  wf := gather_S200000x64_S4096x32x1_S4096x32x64_2_0_n_n_0_2_164_wf
def gather_S64x30000_S4096x1_S64x4096_0_1_n_n_1_1_641 : GatherDims S64x30000 S4096x1 S64x4096 where
  offsetDims := [0]
  collapsedSliceDims := [1]
  operandBatchingDims := []
  startIndicesBatchingDims := []
  startIndexMap := [1]
  indexVectorDim := 1
  sliceSizes := ![64, 1]
  wf := gather_S64x30000_S4096x1_S64x4096_0_1_n_n_1_1_641_wf
def gather_S64x30000_S4096x32x1_S64x4096x32_0_1_n_n_1_2_641 : GatherDims S64x30000 S4096x32x1 S64x4096x32 where
  offsetDims := [0]
  collapsedSliceDims := [1]
  operandBatchingDims := []
  startIndicesBatchingDims := []
  startIndexMap := [1]
  indexVectorDim := 2
  sliceSizes := ![64, 1]
  wf := gather_S64x30000_S4096x32x1_S64x4096x32_0_1_n_n_1_2_641_wf

class Facts : Prop extends Facts₀ where

variable [Facts]
-- ==== Proof.KernelRun.lean ====
/-
  The idealized kernel program's run with its RESULT named.  The frame theorem of the generated module keeps, of the
  final memory, only the argument arrays; the same launch over the same segments also gives the contents of every
  unscoped buffer at the last boundary of the run, among them the returned scalar.  This module restates that run with
  one more conjunct: the result buffer holds what the fold of the host operations and of the three regions' write-backs
  leaves there.
-/
import proofs.«180539_j61460982006014_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the returned scalar's buffer then holds the
    last boundary's contents at that buffer, and the argument arrays are as launched. -/
theorem run_result : θ_run defs (onTc (τ := τ) (main (F := F))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v68 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.ResultRun

end
-- ==== Proof.Boundary.lean ====
/-
  The buffer contents at the boundaries of the idealized kernel program's run, read back to the launch memory.
  The run is a fold: a stretch of host operations rewrites the buffers it writes, a region rewrites its output
  array with what its grid points write back, and everything else is carried along unchanged.  This module walks
  that fold backwards for the buffers the result depends on: the three regions' input arrays (two of them reshapes
  of an argument), every argument array where a host operation reads it, and the partial results that cross a
  region (the two square roots of the parameter penalty, the two similarity penalties).
-/
import proofs.«180539_j61460982006014_2_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes is carried through the stretch unchanged. -/
local macro "skip_ops " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The argument arrays where the host operations and the regions read them -/

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by skip_ops hostOps1
    _ = W1 m ρ c (Proc.devRef .tc main_arg3) := W2_of_ne m ρ c main_arg3 (by decide)
    _ = W0 m ρ c (Proc.devRef .tc main_arg3) := by skip_ops hostOps0
    _ = m ((c : Thread nD τ).loc main_arg3) := rfl
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by skip_ops hostOps1
    _ = W1 m ρ c (Proc.devRef .tc main_arg4) := W2_of_ne m ρ c main_arg4 (by decide)
    _ = W0 m ρ c (Proc.devRef .tc main_arg4) := by skip_ops hostOps0
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by skip_ops hostOps1
    _ = W1 m ρ c (Proc.devRef .tc main_arg5) := W2_of_ne m ρ c main_arg5 (by decide)
    _ = W0 m ρ c (Proc.devRef .tc main_arg5) := by skip_ops hostOps0
    _ = m ((c : Thread nD τ).loc main_arg5) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by skip_ops hostOps1
    _ = W1 m ρ c (Proc.devRef .tc main_arg6) := W2_of_ne m ρ c main_arg6 (by decide)
    _ = W0 m ρ c (Proc.devRef .tc main_arg6) := by skip_ops hostOps0
    _ = m ((c : Thread nD τ).loc main_arg6) := rfl
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by skip_ops hostOps1
    _ = W1 m ρ c (Proc.devRef .tc main_arg7) := W2_of_ne m ρ c main_arg7 (by decide)
    _ = W0 m ρ c (Proc.devRef .tc main_arg7) := by skip_ops hostOps0
    _ = m ((c : Thread nD τ).loc main_arg7) := rfl
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by skip_ops hostOps1
    _ = W1 m ρ c (Proc.devRef .tc main_arg8) := W2_of_ne m ρ c main_arg8 (by decide)
    _ = W0 m ρ c (Proc.devRef .tc main_arg8) := by skip_ops hostOps0
    _ = m ((c : Thread nD τ).loc main_arg8) := rfl
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by skip_ops hostOps1
    _ = W1 m ρ c (Proc.devRef .tc main_arg9) := W2_of_ne m ρ c main_arg9 (by decide)
    _ = W0 m ρ c (Proc.devRef .tc main_arg9) := by skip_ops hostOps0
    _ = m ((c : Thread nD τ).loc main_arg9) := rfl
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by skip_ops hostOps1
    _ = W1 m ρ c (Proc.devRef .tc main_arg10) := W2_of_ne m ρ c main_arg10 (by decide)
    _ = W0 m ρ c (Proc.devRef .tc main_arg10) := by skip_ops hostOps0
    _ = m ((c : Thread nD τ).loc main_arg10) := rfl
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by skip_ops hostOps2
    _ = W3 m ρ c (Proc.devRef .tc main_arg0) := W4_of_ne m ρ c main_arg0 (by decide)
    _ = W2 m ρ c (Proc.devRef .tc main_arg0) := by skip_ops hostOps1
    _ = W1 m ρ c (Proc.devRef .tc main_arg0) := W2_of_ne m ρ c main_arg0 (by decide)
    _ = W0 m ρ c (Proc.devRef .tc main_arg0) := by skip_ops hostOps0
    _ = m ((c : Thread nD τ).loc main_arg0) := rfl
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by skip_ops hostOps2
    _ = W3 m ρ c (Proc.devRef .tc main_arg1) := W4_of_ne m ρ c main_arg1 (by decide)
    _ = W2 m ρ c (Proc.devRef .tc main_arg1) := by skip_ops hostOps1
    _ = W1 m ρ c (Proc.devRef .tc main_arg1) := W2_of_ne m ρ c main_arg1 (by decide)
    _ = W0 m ρ c (Proc.devRef .tc main_arg1) := by skip_ops hostOps0
    _ = m ((c : Thread nD τ).loc main_arg1) := rfl
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by skip_ops hostOps2
    _ = W3 m ρ c (Proc.devRef .tc main_arg2) := W4_of_ne m ρ c main_arg2 (by decide)
    _ = W2 m ρ c (Proc.devRef .tc main_arg2) := by skip_ops hostOps1
    _ = W1 m ρ c (Proc.devRef .tc main_arg2) := W2_of_ne m ρ c main_arg2 (by decide)
    _ = W0 m ρ c (Proc.devRef .tc main_arg2) := by skip_ops hostOps0
    _ = m ((c : Thread nD τ).loc main_arg2) := rfl

end Cert.KernelIdeal.Boundary

end
-- ==== Proof.KernelValue.lean ====
/-
  The idealized kernel program's result as ONE term of the launch memory and of the three regions' output arrays.
  Walking the fold of the run backwards from the returned scalar: the last stretch of host operations adds
  the square root of the host's sum of the third region's tiles, the three regularisation weights times the entity
  penalty, the word penalty and the parameter penalty; the penalties were computed in the stretch before, the
  parameter penalty from the square roots of the host's sums of the first two regions' tiles.  The entity penalty is
  computed by the very operations the reference applies, so it is stated through the reference's own stage function;
  the word penalty differs from the reference's only in how the word vectors are looked up, so it is stated as the
  shared pairwise-distance chain applied to the kernel's lookups.
-/
import proofs.«180539_j61460982006014_2_alg».proof.Proof.Boundary
import proofs.«180539_j61460982006014_2_alg».proof.Proof.Gen.ReferenceIdeal.Read

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

local macro "skip_ops " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The regions' input arrays -/

/-- The first region reads the entity matrix re-laid as 100000 rows of 128. -/
theorem W1_v0 (c : Dev nD) : W1 m ρ c (Proc.devRef .tc main_v0)
    = shapeCast S100000x128 (m ((c : Thread nD τ).loc main_arg3) : (⟨S200000x64, .f32⟩ : BufTy).Contents (Elt F)) shapeCasts_S200000x64_S100000x128 := by
  show StableHlo.after hostOps0 (W0 m ρ c) (Proc.devRef .tc main_v0) = _
  after_results
  rfl

/-- The second region reads the word matrix re-laid as 15000 rows of 128. -/
theorem W3_v1 (c : Dev nD) : W3 m ρ c (Proc.devRef .tc main_v1)
    = shapeCast S15000x128 (m ((c : Thread nD τ).loc main_arg4) : (⟨S64x30000, .f32⟩ : BufTy).Contents (Elt F)) shapeCasts_S64x30000_S15000x128 :=
  calc W3 m ρ c (Proc.devRef .tc main_v1)
    _ = W2 m ρ c (Proc.devRef .tc main_v1) := by skip_ops hostOps1
    _ = W1 m ρ c (Proc.devRef .tc main_v1) := W2_of_ne m ρ c main_v1 (by decide)
    _ = _ := by
      show StableHlo.after hostOps0 (W0 m ρ c) (Proc.devRef .tc main_v1) = _
      after_results
      rfl

/-! ## The partial results that cross a region -/

/-- The first region's output array: what its grid points write back, folded. -/
theorem W2_v2 (c : Dev nD) : W2 m ρ c (Proc.devRef .tc main_v2) = (dat0 (V1 m ρ) c).arrAt 1 cfg0.N := W2_arr m ρ c 1
/-- The second region's output array. -/
theorem W4_v5 (c : Dev nD) : W4 m ρ c (Proc.devRef .tc main_v5) = (dat1 (V3 m ρ) c).arrAt 1 cfg1.N := W4_arr m ρ c 1
/-- The third region's output array. -/
theorem W6_v54 (c : Dev nD) : W6 m ρ c (Proc.devRef .tc main_v54) = (dat2 (V5 m ρ) c).arrAt 2 cfg2.N := W6_arr m ρ c 2

/-- The square root of the host's sum of the first region's tiles. -/
theorem W3_v4 (c : Dev nD) : W3 m ρ c (Proc.devRef .tc main_v4)
    = Host.sqrt (Host.reduceAdd ((dat0 (V1 m ρ) c).arrAt 1 cfg0.N) (constant S_ .f32 0x00000000#32) reducesTo_S20x8x128_S_d0_1_2 h_S_) := by
  show StableHlo.after hostOps1 (W2 m ρ c) (Proc.devRef .tc main_v4) = _
  after_results
  rw [W2_v2 m ρ c]

/-- The parameter penalty: the two square roots added. -/
theorem W5_v8 (c : Dev nD) : W5 m ρ c (Proc.devRef .tc main_v8)
    = addf (Host.sqrt (Host.reduceAdd ((dat0 (V1 m ρ) c).arrAt 1 cfg0.N) (constant S_ .f32 0x00000000#32) reducesTo_S20x8x128_S_d0_1_2 h_S_))
        (Host.sqrt (Host.reduceAdd ((dat1 (V3 m ρ) c).arrAt 1 cfg1.N) (constant S_ .f32 0x00000000#32) reducesTo_S15x8x128_S_d0_1_2 h_S_)) := by
  show StableHlo.after hostOps2 (W4 m ρ c) (Proc.devRef .tc main_v8) = _
  after_results_simp
  rw [W4_v5 m ρ c, W4_of_ne m ρ c main_v4 (by decide), W3_v4 m ρ c]

/-! ## The two similarity penalties -/

/-- The pairwise-distance chain both programs apply to a batch of vectors `Pi`, their 32 neighbours `Pj` and the
    weights `S`: the weighted sum, over batch rows and neighbours, of the Euclidean distances. -/
def simPen (Pi : (⟨S4096x64, .f32⟩ : BufTy).Contents (Elt F)) (Pj : (⟨S4096x32x64, .f32⟩ : BufTy).Contents (Elt F))
    (S : (⟨S4096x32, .f32⟩ : BufTy).Contents (Elt F)) : (⟨S_, .f32⟩ : BufTy).Contents (Elt F) :=
  Host.reduceAdd (mulf (Host.sqrt (Host.reduceAdd
      (mulf (subf (broadcastInDim S4096x32x64 ![0, 1, 2] bcast_S4096x1x64_S4096x32x64_0_1_2 (broadcastInDim S4096x1x64 ![0, 2] bcast_S4096x64_S4096x1x64_0_2 Pi)) Pj)
            (subf (broadcastInDim S4096x32x64 ![0, 1, 2] bcast_S4096x1x64_S4096x32x64_0_1_2 (broadcastInDim S4096x1x64 ![0, 2] bcast_S4096x64_S4096x1x64_0_2 Pi)) Pj))
      (constant S_ .f32 0x00000000#32) reducesTo_S4096x32x64_S4096x32_d2 h_S_)) S)
    (constant S_ .f32 0x00000000#32) reducesTo_S4096x32_S_d0_1 h_S_

/-- The entity penalty is computed by the operations the reference applies, on the same arguments. -/
theorem W5_v30 (c : Dev nD) : W5 m ρ c (Proc.devRef .tc main_v30)
    = Cert.ReferenceIdeal.Read.val_main_v26 (F := F) (m ((c : Thread nD τ).loc main_arg3)) (m ((c : Thread nD τ).loc main_arg5)) (m ((c : Thread nD τ).loc main_arg7)) (m ((c : Thread nD τ).loc main_arg9)) := by
  show StableHlo.after hostOps2 (W4 m ρ c) (Proc.devRef .tc main_v30) = _
  after_results_simp
  rw [W4_arg3 m ρ c, W4_arg5 m ρ c, W4_arg7 m ρ c, W4_arg9 m ρ c]
  rfl

/-- The word penalty: the shared chain on the kernel's lookups, rows of the transposed word matrix at the reference's
    own (sign-corrected) index arrays. -/
theorem W5_v53 (c : Dev nD) : W5 m ρ c (Proc.devRef .tc main_v53)
    = simPen
        (Host.gather gather_S30000x64_S4096x1_S4096x64_1_0_n_n_0_1_164
          (transpose S30000x64 [1, 0] (m ((c : Thread nD τ).loc main_arg4)) transposes_S64x30000_S30000x64_1_0)
          (Cert.ReferenceIdeal.Read.val_main_v32 (F := F) (m ((c : Thread nD τ).loc main_arg8))))
        (Host.gather gather_S30000x64_S4096x32x1_S4096x32x64_2_0_n_n_0_2_164
          (transpose S30000x64 [1, 0] (m ((c : Thread nD τ).loc main_arg4)) transposes_S64x30000_S30000x64_1_0)
          (Cert.ReferenceIdeal.Read.val_main_v40 (F := F) (m ((c : Thread nD τ).loc main_arg10))))
        (m ((c : Thread nD τ).loc main_arg6)) := by
  show StableHlo.after hostOps2 (W4 m ρ c) (Proc.devRef .tc main_v53) = _
  after_results_simp
  rw [W4_arg4 m ρ c, W4_arg6 m ρ c, W4_arg8 m ρ c, W4_arg10 m ρ c]
  rfl

/-- The entity penalty, the word penalty and the parameter penalty are carried through the third region unchanged. -/
theorem W6_v30 (c : Dev nD) : W6 m ρ c (Proc.devRef .tc main_v30)
    = Cert.ReferenceIdeal.Read.val_main_v26 (F := F) (m ((c : Thread nD τ).loc main_arg3)) (m ((c : Thread nD τ).loc main_arg5)) (m ((c : Thread nD τ).loc main_arg7)) (m ((c : Thread nD τ).loc main_arg9)) :=
  (W6_of_ne m ρ c main_v30 (by decide)).trans (W5_v30 m ρ c)
theorem W6_v53 (c : Dev nD) : W6 m ρ c (Proc.devRef .tc main_v53)
    = simPen
        (Host.gather gather_S30000x64_S4096x1_S4096x64_1_0_n_n_0_1_164
          (transpose S30000x64 [1, 0] (m ((c : Thread nD τ).loc main_arg4)) transposes_S64x30000_S30000x64_1_0)
          (Cert.ReferenceIdeal.Read.val_main_v32 (F := F) (m ((c : Thread nD τ).loc main_arg8))))
        (Host.gather gather_S30000x64_S4096x32x1_S4096x32x64_2_0_n_n_0_2_164
          (transpose S30000x64 [1, 0] (m ((c : Thread nD τ).loc main_arg4)) transposes_S64x30000_S30000x64_1_0)
          (Cert.ReferenceIdeal.Read.val_main_v40 (F := F) (m ((c : Thread nD τ).loc main_arg10))))
        (m ((c : Thread nD τ).loc main_arg6)) :=
  (W6_of_ne m ρ c main_v53 (by decide)).trans (W5_v53 m ρ c)
theorem W6_v8 (c : Dev nD) : W6 m ρ c (Proc.devRef .tc main_v8)
    = addf (Host.sqrt (Host.reduceAdd ((dat0 (V1 m ρ) c).arrAt 1 cfg0.N) (constant S_ .f32 0x00000000#32) reducesTo_S20x8x128_S_d0_1_2 h_S_))
        (Host.sqrt (Host.reduceAdd ((dat1 (V3 m ρ) c).arrAt 1 cfg1.N) (constant S_ .f32 0x00000000#32) reducesTo_S15x8x128_S_d0_1_2 h_S_)) :=
  (W6_of_ne m ρ c main_v8 (by decide)).trans (W5_v8 m ρ c)

/-! ## The returned scalar -/

/-- The result: the square root of the host's sum of the third region's tiles, plus the three weights (the entries of
    the third argument, each sliced out and re-laid as a scalar exactly as the reference does) times the entity
    penalty, the word penalty and the parameter penalty, added in the program's order. -/
theorem W7_v68 (c : Dev nD) : W7 m ρ c (Proc.devRef .tc main_v68)
    = addf (addf (addf
        (Host.sqrt (Host.reduceAdd ((dat2 (V5 m ρ) c).arrAt 2 cfg2.N) (constant S_ .f32 0x00000000#32) reducesTo_S64x8x128_S_d0_1_2 h_S_))
        (mulf (Cert.ReferenceIdeal.Read.val_main_v54 (F := F) (m ((c : Thread nD τ).loc main_arg2)))
          (Cert.ReferenceIdeal.Read.val_main_v26 (F := F) (m ((c : Thread nD τ).loc main_arg3)) (m ((c : Thread nD τ).loc main_arg5)) (m ((c : Thread nD τ).loc main_arg7)) (m ((c : Thread nD τ).loc main_arg9)))))
        (mulf (Cert.ReferenceIdeal.Read.val_main_v58 (F := F) (m ((c : Thread nD τ).loc main_arg2)))
          (simPen
            (Host.gather gather_S30000x64_S4096x1_S4096x64_1_0_n_n_0_1_164
              (transpose S30000x64 [1, 0] (m ((c : Thread nD τ).loc main_arg4)) transposes_S64x30000_S30000x64_1_0)
              (Cert.ReferenceIdeal.Read.val_main_v32 (F := F) (m ((c : Thread nD τ).loc main_arg8))))
            (Host.gather gather_S30000x64_S4096x32x1_S4096x32x64_2_0_n_n_0_2_164
              (transpose S30000x64 [1, 0] (m ((c : Thread nD τ).loc main_arg4)) transposes_S64x30000_S30000x64_1_0)
              (Cert.ReferenceIdeal.Read.val_main_v40 (F := F) (m ((c : Thread nD τ).loc main_arg10))))
            (m ((c : Thread nD τ).loc main_arg6)))))
        (mulf (Cert.ReferenceIdeal.Read.val_main_v62 (F := F) (m ((c : Thread nD τ).loc main_arg2)))
          (addf (Host.sqrt (Host.reduceAdd ((dat0 (V1 m ρ) c).arrAt 1 cfg0.N) (constant S_ .f32 0x00000000#32) reducesTo_S20x8x128_S_d0_1_2 h_S_))
            (Host.sqrt (Host.reduceAdd ((dat1 (V3 m ρ) c).arrAt 1 cfg1.N) (constant S_ .f32 0x00000000#32) reducesTo_S15x8x128_S_d0_1_2 h_S_)))) := by
  show StableHlo.after hostOps3 (W6 m ρ c) (Proc.devRef .tc main_v68) = _
  after_results_simp
  rw [W6_v54 m ρ c, W6_arg2 m ρ c, W6_v30 m ρ c, W6_v53 m ρ c, W6_v8 m ρ c]
  rfl

end Cert.KernelIdeal.Boundary

end
-- ==== Proof.Spec.lean ====
/-
  The arithmetic this certificate is about, stated once over the extended reals and over literal index shapes,
  with no program in sight.

  Each of the three kernels sums a pointwise quantity (the squared positive part of an entry, or the squared
  difference of two entries) over one block of rows of a matrix, and writes that block sum into the corner
  entry (0, 0) of an 8 × 128 tile whose other entries are zero; the host then adds up all tiles.  The
  definitions below name the pointwise quantities, the position of a block's entry in the whole matrix, and
  the array of tiles.
-/
import Idealize.ShloMosaic.PureOps.Ideal
import Idealize.ShloMosaic.Lib.ValueIdx

noncomputable section

namespace Cert.Spec

open Idealize.ShloMosaic Idealize.ShloMosaic.ValueIdx

/-- The square of the positive part of an extended real: what `relu` followed by squaring computes. -/
def reluSq (e : EReal) : EReal := max e 0 * max e 0

/-- The square of a difference of two extended reals. -/
def sqDiff (a b : EReal) : EReal := (a - b) * (a - b)

/-- Entry `y` of the `t`-th block of `R` consecutive rows sits, in the whole matrix of `N = T · R` rows, at row
    `t · R + y₀` and column `y₁`. -/
def rowBlk {T R C N : Nat} (hN : N = T * R) (t : Fin T) (y : (⟨2, ![R, C]⟩ : Shape).Idx) :
    (⟨2, ![N, C]⟩ : Shape).Idx :=
  ix2 (n0 := N) (n1 := C)
    ⟨t.val * R + (y 0).val, by
      have h0 : (y 0).val < R := idx2_lt0 y
      have ht : t.val < T := t.isLt
      subst hN
      calc t.val * R + (y 0).val < t.val * R + R := by omega
        _ = (t.val + 1) * R := by ring
        _ ≤ T * R := Nat.mul_le_mul_right R ht⟩
    ⟨(y 1).val, idx2_lt1 y⟩

/-- The array of `T` tiles of shape 8 × 128: tile `t` holds `B t` at its corner (0, 0) and zero elsewhere. -/
def tiles {T : Nat} (B : Fin T → EReal) : (⟨3, ![T, 8, 128]⟩ : Shape).Idx → EReal :=
  fun j => if (j 1).val = 0 ∧ (j 2).val = 0 then B ⟨(j 0).val, (j 0).isLt⟩ else 0

end Cert.Spec

end
-- ==== Proof.SumLaws.lean ====
/-
  Summation laws over literal index shapes, in the extended reals.  A sum over a rank-3 index set is the triple sum
  over its coordinates; the array of tiles sums to the sum of its corner entries; summing a matrix block of rows by
  block of rows is summing the whole matrix; a reshape only re-indexes a sum; and the host's sum over every axis of
  the tiles, started from zero, is the sum of the corner entries.
-/
import proofs.«180539_j61460982006014_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Spec

open Idealize.ShloMosaic Idealize.ShloMosaic.ValueIdx

namespace SumLawsAux

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A tile read at its coordinates. -/
theorem tiles_ix3 {T : Nat} (B : Fin T → EReal) (a : Fin T) (b : Fin 8) (c : Fin 128) :
    tiles B (ix3 a b c) = if b.val = 0 ∧ c.val = 0 then B a else 0 := rfl

end SumLawsAux

/-- the tiles add up to the sum of their corner entries -/
theorem sum_tiles {T : Nat} (B : Fin T → EReal) :
    ∑ j : (⟨3, ![T, 8, 128]⟩ : Shape).Idx, tiles B j = ∑ t : Fin T, B t := by
  rw [SumLawsAux.sum_idx3]
  refine Finset.sum_congr rfl fun a _ => ?_
  rw [Fintype.sum_eq_single (0 : Fin 8), Fintype.sum_eq_single (0 : Fin 128)]
  · rw [SumLawsAux.tiles_ix3]; exact if_pos ⟨rfl, rfl⟩
  · intro c hc
    rw [SumLawsAux.tiles_ix3]
    exact if_neg fun h => hc (Fin.ext h.2)
  · intro b hb
    refine Finset.sum_eq_zero fun c _ => ?_
    rw [SumLawsAux.tiles_ix3]
    exact if_neg fun h => hb (Fin.ext h.1)

/-- summing block by block is summing the whole matrix -/
theorem sum_rowBlk {T R C N : Nat} (hN : N = T * R) (f : (⟨2, ![N, C]⟩ : Shape).Idx → EReal) :
    ∑ t : Fin T, ∑ y : (⟨2, ![R, C]⟩ : Shape).Idx, f (rowBlk hN t y) = ∑ p : (⟨2, ![N, C]⟩ : Shape).Idx, f p := by
  subst hN
  rw [sum_idx2 f, ← Equiv.sum_comp (finProdFinEquiv (m := T) (n := R)), Fintype.sum_prod_type]
  refine Finset.sum_congr rfl fun t _ => ?_
  rw [sum_idx2]
  refine Finset.sum_congr rfl fun a _ => ?_
  refine Finset.sum_congr rfl fun b _ => ?_
  refine congrArg f ?_
  funext d
  match d with
  | ⟨0, _⟩ => exact Fin.ext (by show t.val * R + a.val = a.val + R * t.val; rw [Nat.mul_comm, Nat.add_comm])
  | ⟨1, _⟩ => rfl

/-- a reshape only re-indexes: shapeCast t x h j = x (Shape.reshapeEquiv h j), an Equiv -/
theorem sum_shapeCast {s t : Shape} (h : s.ShapeCasts t) (x : s.Idx → EReal) (f : EReal → EReal) :
    ∑ p : t.Idx, f (shapeCast t x h p) = ∑ q : s.Idx, f (x q) :=
  Equiv.sum_comp (Shape.reshapeEquiv h) fun q => f (x q)

/-- the host's sum of all tiles, read at the extended reals: the sum over every axis into the rank-0 shape, from the
    zero word -/
theorem hostSum_tiles {T : Nat} (B : Fin T → EReal)
    (r : (⟨3, ![T, 8, 128]⟩ : Shape).ReducesTo [0, 1, 2] ⟨0, ![]⟩) (h0 : 0 < (⟨0, ![]⟩ : Shape).numel) :
    Host.reduceAdd (F := Ideal) (tiles B : FVec Ideal ⟨3, ![T, 8, 128]⟩ .f32) (constant (F := Ideal) ⟨0, ![]⟩ .f32 0x00000000#32) r h0
      = fun _ => ∑ t : Fin T, B t := by
  funext j
  simp only [Host.reduceAdd, Ideal.hostReduceAdd_def]
  refine (Ideal.hostReduceAdd_total r (fun b => b.elim0) _ _ j).trans ?_
  rw [constant_apply, Ideal.ofBits_zero_f32, zero_add]
  exact sum_tiles B

end Cert.Spec

end
-- ==== Proof.RefNorms.lean ====
/-
  The reference program's three sums of squares, read as plain sums over the extended reals: the sum of the squared
  positive parts of the entries of each of the two factor matrices, and the sum of the squared differences of the
  entries of the two large matrices.
-/
import proofs.«180539_j61460982006014_2_alg».proof.Proof.Gen.ReferenceIdeal.Read
import proofs.«180539_j61460982006014_2_alg».proof.Proof.Spec

noncomputable section

open scoped BigOperators

namespace Cert.ReferenceIdeal.NormRead

open Cert.ReferenceIdeal Cert.ReferenceIdeal.Gen Cert.ReferenceIdeal.Read Idealize.ShloMosaic Idealize.ShloMosaic.TcCoe

/-- the first factor matrix: the sum over all entries of the squared positive part -/
theorem normE (x3 : (⟨S200000x64, .f32⟩ : BufTy).Contents (Elt Ideal)) :
    val_main_call1_v1 (F := Ideal) x3 = fun _ => ∑ q : S200000x64.Idx, Cert.Spec.reluSq (x3 q) := by
  funext i
  rw [val_main_call1_v1_apply, val_main_call1_cst_apply, Ideal.ofBits_def, Ideal.ofBits_zero_f32, zero_add]
  refine Finset.sum_congr rfl fun q _ => ?_
  rw [val_main_call1_v0_apply, val_main_v0_apply, val_main_call0_v0_apply, val_main_call0_cst_apply,
    Ideal.ofBits_def, Ideal.ofBits_zero_f32, Ideal.mulf_def, Ideal.maximumf_def]
  rfl

/-- the second factor matrix: the sum over all entries of the squared positive part -/
theorem normW (x4 : (⟨S64x30000, .f32⟩ : BufTy).Contents (Elt Ideal)) :
    val_main_call3_v1 (F := Ideal) x4 = fun _ => ∑ q : S64x30000.Idx, Cert.Spec.reluSq (x4 q) := by
  funext i
  rw [val_main_call3_v1_apply, val_main_call3_cst_apply, Ideal.ofBits_def, Ideal.ofBits_zero_f32, zero_add]
  refine Finset.sum_congr rfl fun q _ => ?_
  rw [val_main_call3_v0_apply, val_main_v2_apply, val_main_call2_v0_apply, val_main_call2_cst_apply,
    Ideal.ofBits_def, Ideal.ofBits_zero_f32, Ideal.mulf_def, Ideal.maximumf_def]
  rfl

/-- the two large matrices: the sum over all entries of the squared difference -/
theorem normD (x0 x1 : (⟨S4096x30000, .f32⟩ : BufTy).Contents (Elt Ideal)) :
    val_main_call4_v1 (F := Ideal) x0 x1 = fun _ => ∑ q : S4096x30000.Idx, Cert.Spec.sqDiff (x0 q) (x1 q) := by
  funext i
  rw [val_main_call4_v1_apply, val_main_call4_cst_apply, Ideal.ofBits_def, Ideal.ofBits_zero_f32, zero_add]
  refine Finset.sum_congr rfl fun q _ => ?_
  rw [val_main_call4_v0_apply, val_main_v51_apply, Ideal.mulf_def, Ideal.subf_def]
  rfl

end Cert.ReferenceIdeal.NormRead

end
-- ==== Proof.WordRows.lean ====
/-
  Looking words up as rows of the transposed matrix, or as columns of the matrix followed by a transposition, reads the
  same entries: entry (b, k) of either result is the matrix at row k and at the column named by the b-th start index,
  read as a signed integer and clamped into [0, 29999].
-/
import proofs.«180539_j61460982006014_2_alg».proof.Proof.Gen.KernelIdeal
import proofs.«180539_j61460982006014_2_alg».proof.Proof.Gen.ReferenceIdeal
import Idealize.ShloMosaic.Lib.Pipeline.Value
import Idealize.ShloMosaic.Lib.ValueIdx

namespace Cert.WordRows

open Idealize.ShloMosaic Idealize.ShloMosaic.TcCoe Idealize.ShloMosaic.ValueIdx

/-- A start index read as a signed integer and clamped into [0, 29999]: the word it names. -/
def wordAt (v : BitVec 32) : Fin 30000 := ⟨min v.toInt.toNat 29999, by omega⟩

section Reads
variable {α : Type}

/-- The row gather at (b, k): row wordAt idx[b, 0] of the operand, column k. -/
theorem rowGather_apply (X : Cert.KernelIdeal.S30000x64.Idx → α) (idx : IVec Cert.KernelIdeal.S4096x1 32)
    (b : Fin 4096) (k : Fin 64) :
    Host.gather Cert.KernelIdeal.gather_S30000x64_S4096x1_S4096x64_1_0_n_n_0_1_164 X idx (ix2 b k)
      = X (ix2 (wordAt (idx (ix2 b (0 : Fin 1)))) k) := by
  unfold Host.gather
  refine congrArg X (funext fun a => Fin.ext ?_)
  match a with
  | ⟨0, _⟩ =>
    show GatherDims.start _ (ix2 b k) idx 0 + GatherDims.batchCoord _ (ix2 b k) 0 + GatherDims.offCoord _ (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S30000x64_S4096x1_S4096x64_1_0_n_n_0_1_164.startIndexMap
      from List.mem_singleton.mpr rfl)]
    have hsi : Cert.KernelIdeal.gather_S30000x64_S4096x1_S4096x64_1_0_n_n_0_1_164.siIdx (ix2 b k)
        ⟨List.idxOf (0 : Fin 2) Cert.KernelIdeal.gather_S30000x64_S4096x1_S4096x64_1_0_n_n_0_1_164.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show GatherDims.start _ (ix2 b k) idx 1 + GatherDims.batchCoord _ (ix2 b k) 1 + GatherDims.offCoord _ (ix2 b k) 1 = _
    rw [GatherDims.batchCoord_eq_zero _ _ _ List.not_mem_nil]
    unfold GatherDims.start
    rw [dif_neg (show ¬ (1 : Fin 2) ∈ Cert.KernelIdeal.gather_S30000x64_S4096x1_S4096x64_1_0_n_n_0_1_164.startIndexMap
      from (by decide : ¬ (1 : Fin 2) ∈ [0]))]
    unfold GatherDims.offCoord
    rw [dif_pos ((GatherDims.mem_sKept _ _).mpr ⟨(by decide : (1 : Fin 2) ∉ [0]), List.not_mem_nil⟩)]
    simp only [Nat.zero_add]
    rfl

/-- The column gather at (k, b): row k of the operand, column wordAt idx[b, 0]. -/
theorem colGather_apply (X : Cert.ReferenceIdeal.S64x30000.Idx → α) (idx : IVec Cert.ReferenceIdeal.S4096x1 32)
    (k : Fin 64) (b : Fin 4096) :
    Host.gather Cert.ReferenceIdeal.gather_S64x30000_S4096x1_S64x4096_0_1_n_n_1_1_641 X idx (ix2 k b)
      = X (ix2 k (wordAt (idx (ix2 b (0 : Fin 1))))) := by
  unfold Host.gather
  refine congrArg X (funext fun a => Fin.ext ?_)
  match a with
  | ⟨0, _⟩ =>
    show GatherDims.start _ (ix2 k b) idx 0 + GatherDims.batchCoord _ (ix2 k b) 0 + GatherDims.offCoord _ (ix2 k b) 0 = _
    rw [GatherDims.batchCoord_eq_zero _ _ _ List.not_mem_nil]
    unfold GatherDims.start
    rw [dif_neg (show ¬ (0 : Fin 2) ∈ Cert.ReferenceIdeal.gather_S64x30000_S4096x1_S64x4096_0_1_n_n_1_1_641.startIndexMap
      from (by decide : ¬ (0 : Fin 2) ∈ [1]))]
    unfold GatherDims.offCoord
    rw [dif_pos ((GatherDims.mem_sKept _ _).mpr ⟨(by decide : (0 : Fin 2) ∉ [1]), List.not_mem_nil⟩)]
    simp only [Nat.zero_add]
    rfl
  | ⟨1, _⟩ =>
    show GatherDims.start _ (ix2 k b) idx 1 + GatherDims.batchCoord _ (ix2 k b) 1 + GatherDims.offCoord _ (ix2 k b) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ Cert.ReferenceIdeal.gather_S64x30000_S4096x1_S64x4096_0_1_n_n_1_1_641.startIndexMap
      from List.mem_singleton.mpr rfl)]
    have hsi : Cert.ReferenceIdeal.gather_S64x30000_S4096x1_S64x4096_0_1_n_n_1_1_641.siIdx (ix2 k b)
        ⟨List.idxOf (1 : Fin 2) Cert.ReferenceIdeal.gather_S64x30000_S4096x1_S64x4096_0_1_n_n_1_1_641.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl

/-- The row gather at (b, n, k): row wordAt idx[b, n, 0] of the operand, column k. -/
theorem rowGather3_apply (X : Cert.KernelIdeal.S30000x64.Idx → α) (idx : IVec Cert.KernelIdeal.S4096x32x1 32)
    (b : Fin 4096) (n : Fin 32) (k : Fin 64) :
    Host.gather Cert.KernelIdeal.gather_S30000x64_S4096x32x1_S4096x32x64_2_0_n_n_0_2_164 X idx (ix3 b n k)
      = X (ix2 (wordAt (idx (ix3 b n (0 : Fin 1)))) k) := by
  unfold Host.gather
  refine congrArg X (funext fun a => Fin.ext ?_)
  match a with
  | ⟨0, _⟩ =>
    show GatherDims.start _ (ix3 b n k) idx 0 + GatherDims.batchCoord _ (ix3 b n k) 0 + GatherDims.offCoord _ (ix3 b n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S30000x64_S4096x32x1_S4096x32x64_2_0_n_n_0_2_164.startIndexMap
      from List.mem_singleton.mpr rfl)]
    have hsi : Cert.KernelIdeal.gather_S30000x64_S4096x32x1_S4096x32x64_2_0_n_n_0_2_164.siIdx (ix3 b n k)
        ⟨List.idxOf (0 : Fin 2) Cert.KernelIdeal.gather_S30000x64_S4096x32x1_S4096x32x64_2_0_n_n_0_2_164.startIndexMap,
          List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b n k) idx 1 + GatherDims.batchCoord _ (ix3 b n k) 1 + GatherDims.offCoord _ (ix3 b n k) 1 = _
    rw [GatherDims.batchCoord_eq_zero _ _ _ List.not_mem_nil]
    unfold GatherDims.start
    rw [dif_neg (show ¬ (1 : Fin 2) ∈ Cert.KernelIdeal.gather_S30000x64_S4096x32x1_S4096x32x64_2_0_n_n_0_2_164.startIndexMap
      from (by decide : ¬ (1 : Fin 2) ∈ [0]))]
    unfold GatherDims.offCoord
    rw [dif_pos ((GatherDims.mem_sKept _ _).mpr ⟨(by decide : (1 : Fin 2) ∉ [0]), List.not_mem_nil⟩)]
    simp only [Nat.zero_add]
    rfl

/-- The column gather at (k, b, n): row k of the operand, column wordAt idx[b, n, 0]. -/
theorem colGather3_apply (X : Cert.ReferenceIdeal.S64x30000.Idx → α) (idx : IVec Cert.ReferenceIdeal.S4096x32x1 32)
    (k : Fin 64) (b : Fin 4096) (n : Fin 32) :
    Host.gather Cert.ReferenceIdeal.gather_S64x30000_S4096x32x1_S64x4096x32_0_1_n_n_1_2_641 X idx (ix3 k b n)
      = X (ix2 k (wordAt (idx (ix3 b n (0 : Fin 1))))) := by
  unfold Host.gather
  refine congrArg X (funext fun a => Fin.ext ?_)
  match a with
  | ⟨0, _⟩ =>
    show GatherDims.start _ (ix3 k b n) idx 0 + GatherDims.batchCoord _ (ix3 k b n) 0 + GatherDims.offCoord _ (ix3 k b n) 0 = _
    rw [GatherDims.batchCoord_eq_zero _ _ _ List.not_mem_nil]
    unfold GatherDims.start
    rw [dif_neg (show ¬ (0 : Fin 2) ∈ Cert.ReferenceIdeal.gather_S64x30000_S4096x32x1_S64x4096x32_0_1_n_n_1_2_641.startIndexMap
      from (by decide : ¬ (0 : Fin 2) ∈ [1]))]
    unfold GatherDims.offCoord
    rw [dif_pos ((GatherDims.mem_sKept _ _).mpr ⟨(by decide : (0 : Fin 2) ∉ [1]), List.not_mem_nil⟩)]
    simp only [Nat.zero_add]
    rfl
  | ⟨1, _⟩ =>
    show GatherDims.start _ (ix3 k b n) idx 1 + GatherDims.batchCoord _ (ix3 k b n) 1 + GatherDims.offCoord _ (ix3 k b n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ Cert.ReferenceIdeal.gather_S64x30000_S4096x32x1_S64x4096x32_0_1_n_n_1_2_641.startIndexMap
      from List.mem_singleton.mpr rfl)]
    have hsi : Cert.ReferenceIdeal.gather_S64x30000_S4096x32x1_S64x4096x32_0_1_n_n_1_2_641.siIdx (ix3 k b n)
        ⟨List.idxOf (1 : Fin 2) Cert.ReferenceIdeal.gather_S64x30000_S4096x32x1_S64x4096x32_0_1_n_n_1_2_641.startIndexMap,
          List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl

end Reads

/-- one word per batch row: row idx[b] of the transposed matrix is column idx[b] of the matrix, transposed -/
theorem rows_eq (W : Cert.KernelIdeal.S64x30000.Idx → EReal) (idx : IVec Cert.KernelIdeal.S4096x1 32) :
    Host.gather Cert.KernelIdeal.gather_S30000x64_S4096x1_S4096x64_1_0_n_n_0_1_164
        (transpose Cert.KernelIdeal.S30000x64 [1, 0] W Cert.KernelIdeal.Facts₀.transposes_S64x30000_S30000x64_1_0) idx
      = transpose Cert.ReferenceIdeal.S4096x64 [1, 0]
          (Host.gather Cert.ReferenceIdeal.gather_S64x30000_S4096x1_S64x4096_0_1_n_n_1_1_641 W idx)
          Cert.ReferenceIdeal.Facts₀.transposes_S64x4096_S4096x64_1_0 := by
  funext j
  obtain ⟨b, k, rfl⟩ : ∃ b k, j = ix2 b k := ⟨j 0, j 1, eq_ix2 j⟩
  refine (rowGather_apply _ idx b k).trans ?_
  refine (transpose_apply [1, 0] W Cert.KernelIdeal.Facts₀.transposes_S64x30000_S30000x64_1_0 _
    (ix2 k (wordAt (idx (ix2 b (0 : Fin 1))))) (fun c => match c with
      | ⟨0, _⟩ => rfl
      | ⟨1, _⟩ => rfl)).trans ?_
  refine Eq.symm ?_
  refine (transpose_apply [1, 0] (Host.gather Cert.ReferenceIdeal.gather_S64x30000_S4096x1_S64x4096_0_1_n_n_1_1_641 W idx)
    Cert.ReferenceIdeal.Facts₀.transposes_S64x4096_S4096x64_1_0 (ix2 b k) (ix2 k b) (fun c => match c with
      | ⟨0, _⟩ => rfl
      | ⟨1, _⟩ => rfl)).trans ?_
  exact colGather_apply W idx k b

/-- 32 neighbour words per batch row, the same way -/
theorem nbrs_eq (W : Cert.KernelIdeal.S64x30000.Idx → EReal) (idx : IVec Cert.KernelIdeal.S4096x32x1 32) :
    Host.gather Cert.KernelIdeal.gather_S30000x64_S4096x32x1_S4096x32x64_2_0_n_n_0_2_164
        (transpose Cert.KernelIdeal.S30000x64 [1, 0] W Cert.KernelIdeal.Facts₀.transposes_S64x30000_S30000x64_1_0) idx
      = transpose Cert.ReferenceIdeal.S4096x32x64 [1, 2, 0]
          (Host.gather Cert.ReferenceIdeal.gather_S64x30000_S4096x32x1_S64x4096x32_0_1_n_n_1_2_641 W idx)
          Cert.ReferenceIdeal.Facts₀.transposes_S64x4096x32_S4096x32x64_1_2_0 := by
  funext j
  obtain ⟨b, n, k, rfl⟩ : ∃ b n k, j = ix3 b n k := ⟨j 0, j 1, j 2, eq_ix3 j⟩
  refine (rowGather3_apply _ idx b n k).trans ?_
  refine (transpose_apply [1, 0] W Cert.KernelIdeal.Facts₀.transposes_S64x30000_S30000x64_1_0 _
    (ix2 k (wordAt (idx (ix3 b n (0 : Fin 1))))) (fun c => match c with
      | ⟨0, _⟩ => rfl
      | ⟨1, _⟩ => rfl)).trans ?_
  refine Eq.symm ?_
  refine (transpose_apply [1, 2, 0] (Host.gather Cert.ReferenceIdeal.gather_S64x30000_S4096x32x1_S64x4096x32_0_1_n_n_1_2_641 W idx)
    Cert.ReferenceIdeal.Facts₀.transposes_S64x4096x32_S4096x32x64_1_2_0 (ix3 b n k) (ix3 k b n) (fun c => match c with
      | ⟨0, _⟩ => rfl
      | ⟨1, _⟩ => rfl
      | ⟨2, _⟩ => rfl)).trans ?_
  exact colGather3_apply W idx k b n

end Cert.WordRows
-- ==== Proof.TilesE.lean ====
/- The tile array the first row-block region leaves. The input array has N = T·R rows of C columns; grid point t
   reads rows t·R … t·R + R − 1, sums max(x, 0)² over that whole block, and writes an 8×128 tile holding the sum at
   its corner (0, 0) and zero elsewhere. Here: the body's arithmetic read at an index of the tile (the corner mask,
   the total sum re-indexed from the [1, R, C] view to the [R, C] block), the block a point reads as rows of the array,
   what each point writes back as a tile of one array-wide function, and the cover of the tile array by the points'
   tiles. -/
import proofs.«180539_j61460982006014_2_alg».proof.Proof.Gen.KernelIdeal.Frame
import proofs.«180539_j61460982006014_2_alg».proof.Proof.Spec
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws

noncomputable section

namespace Cert.KernelIdeal.TilesE

open Cert.KernelIdeal Cert.KernelIdeal.Gen Idealize.ShloMosaic Idealize.ShloMosaic.TcCoe Idealize.SL.Sem
open Idealize.ShloMosaic.Pipeline (Dat)
open Idealize.ShloMosaic.ValueIdx

/-- The mask word of the tile's corner: both coordinate words equal to zero. -/
theorem corner_select {α : Type} (r l : Nat) (hr : r < 8) (hl : l < 128) (A B : α) :
    Scalar.select (IntOp.andi (IntOp.cmpi .eq (BitVec.ofNat 32 r) 0#32) (IntOp.cmpi .eq (BitVec.ofNat 32 l) 0#32)) A B
      = if r = 0 ∧ l = 0 then A else B := by
  unfold Scalar.select
  refine if_congr ?_ rfl rfl
  simp only [IntOp.cmpi, WordArith.andi_ofBool, WordArith.ofBool_eq_numeral_one_iff, Bool.and_eq_true, beq_iff_eq]
  constructor
  · rintro ⟨h1, h2⟩
    have e1 := congrArg BitVec.toNat h1
    have e2 := congrArg BitVec.toNat h2
    simp only [BitVec.toNat_ofNat] at e1 e2
    constructor <;> omega
  · rintro ⟨rfl, rfl⟩
    exact ⟨rfl, rfl⟩

/-- The sum over the whole [1, R, C] vector, taken out of its one-entry result, is the sum of all its entries. -/
theorem extract_total (src : FVec Ideal S1x5000x128 .f32) (hφ : FKind.Formats .f32) (hacc : (0x00000000#32 : BitVec 32) = 0x00000000#32) :
    extractAt ![0, 0, 0] (shapeCast S1x1x1 (multiReduction .add [1, 2] S1 src 0x00000000#32 reduces_S1x5000x128_S1 hφ hacc) shapeCasts_S1_S1x1x1) inpos_S1x1x1_p0_0_0
      = ∑ i : S1x5000x128.Idx, src i := by
  unfold extractAt shapeCast
  exact Ideal.multiReduction_add_total src 0x00000000#32 reduces_S1x5000x128_S1 (fun b => by match b with | ⟨0, _⟩ => rfl) hφ hacc _

/-- The entries of the [1, R, C] view of an [R, C] vector are the vector's entries, each once. -/
theorem sum_cast (v : FVec Ideal S5000x128 .f32) (h : S5000x128.ShapeCasts S1x5000x128) :
    ∑ i : S1x5000x128.Idx, shapeCast S1x5000x128 v h i = ∑ y : S5000x128.Idx, v y := by
  unfold shapeCast
  exact Equiv.sum_comp (Shape.reshapeEquiv h) v

theorem pay_apply (x : Vec Ideal S5000x128 .f32) (r : Fin 8) (l : Fin 128) :
    k0_pay1 (F := Ideal) x (ix3 (0 : Fin 1) r l)
      = if r.val = 0 ∧ l.val = 0 then ∑ y : S5000x128.Idx, Cert.Spec.reluSq (x y) else 0 := by
  unfold k0_pay1
  dsimp only
  refine (shapeCast_ab_1ab_apply _ _ (0 : Fin 1) r l).trans ?_
  rw [select_apply, broadcast_apply, broadcast_apply]
  show Scalar.select (IntOp.andi (IntOp.cmpi .eq (iota .tc S8x128 32 [0] iota_S8x128_d0_w32 _) 0#32) (IntOp.cmpi .eq (iota .tc S8x128 32 [1] iota_S8x128_d1_w32 _) 0#32)) _ _ = _
  rw [iota_single_apply, iota_single_apply]
  refine (corner_select r.val l.val r.isLt l.isLt _ _).trans ?_
  refine if_congr Iff.rfl ?_ ?_
  · refine (extract_total _ _ _).trans ?_
    refine (sum_cast _ _).trans ?_
    refine Finset.sum_congr rfl fun y _ => ?_
    rw [mulf_apply, maximumf_apply, broadcast_apply, shapeCast_self, Ideal.ofBits_def, Ideal.ofBits_zero_f32]
    rfl
  · rw [Ideal.ofBits_def]; exact Ideal.ofBits_zero_f32

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point t reads the t-th block of rows, all columns, and writes tile t. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- A tile array read at an index given by its coordinates. -/
theorem tiles_apply {T : Nat} (B : Fin T → EReal) (i : (⟨3, ![T, 8, 128]⟩ : Shape).Idx) (t : Fin T) (r l : Nat)
    (h0 : (i 0).val = t.val) (h1 : (i 1).val = r) (h2 : (i 2).val = l) :
    Cert.Spec.tiles B i = if r = 0 ∧ l = 0 then B t else 0 := by
  unfold Cert.Spec.tiles
  have e : (⟨(i 0).val, (i 0).isLt⟩ : Fin T) = t := Fin.ext h0
  rw [h1, h2, e]

variable (V : (c : Dev nD) → (b : Ref sig .tc) → Buf (Elt Ideal) ((c : Thread nD τ).loc b))

/-- The input block at point t is rows t·R … t·R + R − 1 of the array. -/
theorem iblk_apply (c : Dev nD) (t : Fin cfg0.N) (y : S5000x128.Idx) :
    (iblk0 (F := Ideal) V c 0 t : Vec Ideal S5000x128 .f32) y
      = V c main_v0 (Cert.Spec.rowBlk (T := 20) (R := 5000) (C := 128) (N := 100000) rfl (Fin.cast N_0 t) y) := by
  obtain ⟨e0, e1, -, -, -⟩ := idx_facts t
  unfold iblk0
  rw [View.read_apply]
  show V c main_v0 _ = V c main_v0 _
  congr 1
  funext a
  apply Fin.ext
  match a with
  | ⟨0, _⟩ => show win0_0.index t (0 : Fin 2) * 5000 + 1 * (y 0).val = t.val * 5000 + (y 0).val; rw [e0]; omega
  | ⟨1, _⟩ => show win0_0.index t (1 : Fin 2) * 128 + 1 * (y 1).val = (y 1).val; rw [e1]; omega

/-- The tile array the region leaves: tile t holds the sum over block t of the squared positive parts. -/
abbrev G (c : Dev nD) : S20x8x128.Idx → EReal :=
  Cert.Spec.tiles (T := 20) (fun t => ∑ y : S5000x128.Idx,
    Cert.Spec.reluSq (V c main_v0 (Cert.Spec.rowBlk (T := 20) (R := 5000) (C := 128) (N := 100000) rfl t y)))

/-- Two functions on a one-tile block agree when they agree at every (0, r, l). -/
theorem tile_ext {f g : S1x8x128.Idx → EReal} (h : ∀ (r : Fin 8) (l : Fin 128), f (ix3 (0 : Fin 1) r l) = g (ix3 (0 : Fin 1) r l)) : f = g := by
  funext j
  obtain ⟨u, r, l, rfl⟩ : ∃ (u : Fin 1) (r : Fin 8) (l : Fin 128), j = ix3 u r l := ⟨j 0, j 1, j 2, eq_ix3 j⟩
  obtain rfl : u = 0 := Subsingleton.elim _ _
  exact h r l

/-- What point t writes back is tile t of G. -/
theorem flushed_eq (c : Dev nD) (t : Fin cfg0.N) :
    (dat0 (F := Ideal) V c).flushed 1 t = ((cfg0.win 1).blk t).view.read (Elt Ideal) (G V c) := by
  show (cfg0.win 1).cut (grid0.coords t) ((dat0 V c).after 1 t) = _
  rw [after0_1]
  unfold out0_1
  rw [View.canon_unit_zero hz3]
  simp only [View.ld_unit_zero (S := S5000x128) hz2]
  obtain ⟨-, -, e0, e1, e2⟩ := idx_facts t
  refine tile_ext fun r l => ?_
  show k0_pay1 (F := Ideal) (iblk0 V c 0 t) (ix3 (0 : Fin 1) r l) = G V c (((cfg0.win 1).blk t).view.emb (ix3 (0 : Fin 1) r l))
  refine (pay_apply (iblk0 V c 0 t) r l).trans ?_
  refine ((tiles_apply _ _ (Fin.cast N_0 t) r.val l.val ?_ ?_ ?_).trans ?_).symm
  · show win0_1.index t (0 : Fin 3) * 1 + 1 * 0 = t.val; rw [e0]; omega
  · show win0_1.index t (1 : Fin 3) * 8 + 1 * r.val = r.val; rw [e1]; omega
  · show win0_1.index t (2 : Fin 3) * 128 + 1 * l.val = l.val; rw [e2]; omega
  · refine if_congr Iff.rfl ?_ rfl
    exact Finset.sum_congr rfl fun y _ => congrArg Cert.Spec.reluSq (iblk_apply V c t y).symm

/-- An index of the tile array is in point t's block iff each coordinate is in the block's range on its axis. -/
theorem mem_blk (t : Fin cfg0.N) (i : S20x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v2).slice (win0_1.rect t)).set ↔ _
  rw [View.set_slice_whole, Rect.mem_set_unit]
  exact Iff.rfl

/-- Every index of the tile array lies in the block of the point numbered by its tile. -/
theorem cover (i : S20x8x128.Idx) :
    ∃ t : Fin cfg0.N, (cfg0.win 1).flush t = true ∧ i ∈ ((cfg0.win 1).blk t).view.set := by
  have h0 : (i 0).val < 20 := (i 0).isLt
  have h1 : (i 1).val < 8 := (i 1).isLt
  have h2 : (i 2).val < 128 := (i 2).isLt
  refine ⟨Fin.cast N_0.symm ⟨(i 0).val, h0⟩, flush0_1 _, ?_⟩
  obtain ⟨-, -, e0, e1, e2⟩ := idx_facts (Fin.cast N_0.symm ⟨(i 0).val, h0⟩)
  rw [mem_blk]
  intro a
  match a with
  | ⟨0, _⟩ => show win0_1.index _ (0 : Fin 3) * 1 ≤ (i 0).val ∧ (i 0).val < win0_1.index _ (0 : Fin 3) * 1 + 1; rw [e0]; show (i 0).val * 1 ≤ (i 0).val ∧ (i 0).val < (i 0).val * 1 + 1; omega
  | ⟨1, _⟩ => show win0_1.index _ (1 : Fin 3) * 8 ≤ (i 1).val ∧ (i 1).val < win0_1.index _ (1 : Fin 3) * 8 + 8; rw [e1]; omega
  | ⟨2, _⟩ => show win0_1.index _ (2 : Fin 3) * 128 ≤ (i 2).val ∧ (i 2).val < win0_1.index _ (2 : Fin 3) * 128 + 128; rw [e2]; omega

/-- The tile array after the region: tile t holds the sum over block t of the squared positive parts, zero elsewhere. -/
theorem final (c : Dev nD) :
    (dat0 (F := Ideal) V c).arrAt 1 cfg0.N
      = Cert.Spec.tiles (T := 20) (fun t => ∑ y : S5000x128.Idx,
          Cert.Spec.reluSq (V c main_v0 (Cert.Spec.rowBlk (T := 20) (R := 5000) (C := 128) (N := 100000) rfl t y))) :=
  (dat0 (F := Ideal) V c).arrAt_eq_of_cover 1 (G V c) (fun t _ => flushed_eq V c t) cover

end Cert.KernelIdeal.TilesE

end
-- ==== Proof.TilesW.lean ====
/-
  The second region's output array, read entry by entry.

  The region runs over 15 grid points.  At point t the body reads rows t·1000 … t·1000 + 999 (all 128 columns) of its
  input array, takes the larger of each entry and zero, squares it, adds these squares up over the whole block, and
  stores an 8 × 128 tile holding that sum at its corner (0, 0) and zero at every other entry; the tile is written back
  as tile t of the output array.  The steps: the stored tile at an entry (the mask is set exactly at the corner, the
  total over the block with a leading unit axis is the total over the block); where each window's block sits at a
  grid point; the input block's entry as an entry of the input array; what a point writes back as a tile of one
  whole-array function; every entry of the output lies in the tile of its own point; hence the array after the region.
-/
import proofs.«180539_j61460982006014_2_alg».proof.Proof.Gen.KernelIdeal.Frame
import proofs.«180539_j61460982006014_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TilesW

open Cert.KernelIdeal Cert.KernelIdeal.Gen Idealize.ShloMosaic Idealize.ShloMosaic.TcCoe Idealize.SL.Sem
open Idealize.ShloMosaic.ValueIdx
open Idealize.ShloMosaic.Pipeline (Dat)

/-- The total of a rank-3 vector with a leading unit axis, cast from a rank-2 vector, is the total of the rank-2 vector:
    the cast only renames the indices. -/
theorem sum_cast (v : S1000x128.Idx → EReal) (h : S1000x128.ShapeCasts S1x1000x128) :
    ∑ i : S1x1000x128.Idx, shapeCast S1x1000x128 v h i = ∑ y : S1000x128.Idx, v y := by
  unfold shapeCast
  exact Equiv.sum_comp (Shape.reshapeEquiv h) v

/-- A sum into the one-entry vector, with the zero word as accumulator, is the total over the source. -/
theorem reduce_total (src : FVec Ideal S1x1000x128 .f32) (h : S1x1000x128.Reduces [1, 2] S1)
    (hφ : FKind.Formats .f32) (hacc : (0x00000000#32 : BitVec 32) = FKind.add.neutral .f32 hφ) (j : S1.Idx) :
    multiReduction (F := Ideal) .add [1, 2] S1 src 0x00000000#32 h hφ hacc j = ∑ i : S1x1000x128.Idx, src i :=
  Ideal.multiReduction_add_total src _ h (fun b => by fin_cases b; rfl) hφ hacc j

/-- The one entry of a one-entry vector, cast to rank three, extracted and spread over a tile, is that entry everywhere. -/
theorem spread_at (v : S1.Idx → EReal) (h : S1.ShapeCasts S1x1x1) (h' : ∀ a, (![0, 0, 0] : Fin 3 → Nat) a < S1x1x1.size a)
    (i : S8x128.Idx) :
    broadcast S8x128 (extractAt ![0, 0, 0] (shapeCast S1x1x1 v h) h') i = v (Shape.reshapeEquiv h fun a => ⟨![0, 0, 0] a, h' a⟩) := rfl

/-- The two coordinate words of a tile entry compared with zero and conjoined: the bit is set exactly at the corner. -/
theorem corner_bit (r : Fin 8) (l : Fin 128) :
    IntOp.andi (IntOp.cmpi .eq (BitVec.ofNat 32 r.val) 0#32) (IntOp.cmpi .eq (BitVec.ofNat 32 l.val) 0#32)
      = if r.val = 0 ∧ l.val = 0 then 1#1 else 0#1 := by
  revert r l; decide

/-- The mask the body selects by, read at an entry of the tile. -/
theorem mask_at (h0 : S8x128.Iotas .tc 32 [0]) (h1 : S8x128.Iotas .tc 32 [1]) (r : Fin 8) (l : Fin 128) :
    andi (cmpi .eq (iota .tc S8x128 32 [0] h0) (broadcast S8x128 0#32)) (cmpi .eq (iota .tc S8x128 32 [1] h1) (broadcast S8x128 0#32)) (ix2 r l)
      = if r.val = 0 ∧ l.val = 0 then 1#1 else 0#1 := by
  show IntOp.andi (IntOp.cmpi .eq (iota .tc S8x128 32 [0] h0 (ix2 r l)) 0#32) (IntOp.cmpi .eq (iota .tc S8x128 32 [1] h1 (ix2 r l)) 0#32) = _
  rw [iota_single_apply, iota_single_apply]
  exact corner_bit r l

/-- The square of the larger of an entry and zero, entry by entry (the cast to the same shape changes nothing). -/
theorem sq_at (x0 : FVec Ideal S1000x128 .f32) (h : S1000x128.ShapeCasts S1000x128) (z : EReal) (hz : z = 0) (y : S1000x128.Idx) :
    mulf (maximumf (shapeCast S1000x128 x0 h) (broadcast S1000x128 z)) (maximumf (shapeCast S1000x128 x0 h) (broadcast S1000x128 z)) y
      = Cert.Spec.reluSq (x0 y) := by
  subst hz
  rw [shapeCast_self]
  rfl

/-- The body's stored tile, entry by entry: the block's sum of squared positive parts at the corner, zero elsewhere. -/
theorem pay_at (x0 : Vec Ideal S1000x128 .f32) (u : Fin 1) (r : Fin 8) (l : Fin 128) :
    k1_pay1 (F := Ideal) x0 (ix3 u r l)
      = if r.val = 0 ∧ l.val = 0 then ∑ y : S1000x128.Idx, Cert.Spec.reluSq (x0 y) else 0 := by
  unfold k1_pay1
  dsimp only
  refine (shapeCast_ab_1ab_apply _ _ u r l).trans ?_
  refine (select_apply _ _ _ _).trans ?_
  refine (congrArg (fun b => Scalar.select b _ _) (mask_at _ _ r l)).trans ?_
  by_cases hc : r.val = 0 ∧ l.val = 0
  · rw [if_pos hc, if_pos hc]
    refine (select_one _ _).trans ?_
    refine (spread_at _ _ _ _).trans ?_
    refine (reduce_total _ _ (.inl rfl) rfl _).trans ?_
    refine (sum_cast _ _).trans ?_
    exact Finset.sum_congr rfl fun y _ => sq_at x0 _ _ Ideal.ofBits_zero_f32 y
  · rw [if_neg hc, if_neg hc]
    refine (select_zero _ _).trans ?_
    exact (broadcast_apply _ _).trans Ideal.ofBits_zero_f32

/-- The stored tile at any of its entries. -/
theorem pay_idx (x0 : Vec Ideal S1000x128 .f32) (j : S1x8x128.Idx) :
    k1_pay1 (F := Ideal) x0 j
      = if (j 1).val = 0 ∧ (j 2).val = 0 then ∑ y : S1000x128.Idx, Cert.Spec.reluSq (x0 y) else 0 := by
  obtain ⟨u, r, l, rfl⟩ : ∃ (u : Fin 1) (r : Fin 8) (l : Fin 128), j = ix3 u r l := ⟨j 0, j 1, j 2, eq_ix3 j⟩
  exact pay_at x0 u r l

theorem hz2 : (![0, 0] : Fin 2 → Nat) = fun _ => 0 := funext fun a => by fin_cases a <;> rfl
theorem hz3 : (![0, 0, 0] : Fin 3 → Nat) = fun _ => 0 := funext fun a => by fin_cases a <;> rfl

/-- Where the windows' blocks sit at each grid point: the input's block t starts at row block t, column block 0; the output's
    block t is tile t. -/
theorem idx_facts : ∀ t : Fin cfg1.N, win1_0.index t (0 : Fin 2) = t.val ∧ win1_0.index t (1 : Fin 2) = 0
    ∧ win1_1.index t (0 : Fin 3) = t.val ∧ win1_1.index t (1 : Fin 3) = 0 ∧ win1_1.index t (2 : Fin 3) = 0 :=
  (by decide +kernel : ∀ t : Fin grid1.N, _)

variable (V : (c : Dev nD) → (b : Ref sig .tc) → Buf (Elt Ideal) ((c : Thread nD τ).loc b))

/-- Entry y of the input's block at point t is the input array at row t·1000 + y₀, column y₁. -/
theorem blk0_read (c : Dev nD) (t : Fin cfg1.N) (t' : Fin 15) (ht : t'.val = t.val) (y : S1000x128.Idx) :
    iblk1 (F := Ideal) V c 0 t y = V c main_v1 (Cert.Spec.rowBlk (T := 15) (R := 1000) (C := 128) (N := 15000) rfl t' y) := by
  obtain ⟨e00, e01, -⟩ := idx_facts t
  unfold iblk1
  show V c main_v1 (((cfg1.win 0).blk t).view.emb y) = V c main_v1 _
  refine congrArg (V c main_v1) (funext fun a => Fin.ext ?_)
  match a with
  | ⟨0, _⟩ => show win1_0.index t (0 : Fin 2) * 1000 + 1 * (y 0).val = t'.val * 1000 + (y 0).val; rw [e00, ht]; omega
  | ⟨1, _⟩ => show win1_0.index t (1 : Fin 2) * 128 + 1 * (y 1).val = (y 1).val; rw [e01]; omega

/-- The whole output array: tile t holds the sum of squared positive parts over rows t·1000 … t·1000 + 999. -/
abbrev G (c : Dev nD) : S15x8x128.Idx → EReal :=
  Cert.Spec.tiles (T := 15) (fun t => ∑ y : S1000x128.Idx,
    Cert.Spec.reluSq (V c main_v1 (Cert.Spec.rowBlk (T := 15) (R := 1000) (C := 128) (N := 15000) rfl t y)))

/-- What grid point t writes back is tile t of that array. -/
theorem flushed_eq (c : Dev nD) (t : Fin cfg1.N) :
    (dat1 (F := Ideal) V c).flushed 1 t = ((cfg1.win 1).blk t).view.read (Elt Ideal) (G V c) := by
  show (cfg1.win 1).cut (grid1.coords t) ((dat1 (F := Ideal) V c).after 1 t) = _
  rw [after1_1]
  unfold out1_1
  rw [View.canon_unit_zero hz3]
  simp only [View.ld_unit_zero (S := S1000x128) hz2]
  obtain ⟨-, -, e10, e11, e12⟩ := idx_facts t
  funext j
  show k1_pay1 (F := Ideal) (iblk1 V c 0 t) j = G V c (((cfg1.win 1).blk t).view.emb j)
  refine (pay_idx (iblk1 V c 0 t) j).trans ?_
  have hj0 : (j 0).val < 1 := (j 0).isLt
  have h0 : ((((cfg1.win 1).blk t).view.emb j) 0).val = t.val := by
    show win1_1.index t (0 : Fin 3) * 1 + 1 * (j 0).val = t.val
    rw [e10]; omega
  have h1 : ((((cfg1.win 1).blk t).view.emb j) 1).val = (j 1).val := by
    show win1_1.index t (1 : Fin 3) * 8 + 1 * (j 1).val = (j 1).val
    rw [e11]; omega
  have h2 : ((((cfg1.win 1).blk t).view.emb j) 2).val = (j 2).val := by
    show win1_1.index t (2 : Fin 3) * 128 + 1 * (j 2).val = (j 2).val
    rw [e12]; omega
  unfold G Cert.Spec.tiles
  show _ = if ((((cfg1.win 1).blk t).view.emb j) 1).val = 0 ∧ ((((cfg1.win 1).blk t).view.emb j) 2).val = 0 then _ else 0
  rw [h1, h2]
  refine if_congr Iff.rfl ?_ rfl
  have key : ∀ t' : Fin 15, t'.val = t.val →
      (∑ y : S1000x128.Idx, Cert.Spec.reluSq (iblk1 (F := Ideal) V c 0 t y))
        = ∑ y : S1000x128.Idx,
            Cert.Spec.reluSq (V c main_v1 (Cert.Spec.rowBlk (T := 15) (R := 1000) (C := 128) (N := 15000) rfl t' y)) :=
    fun t' ht => Finset.sum_congr rfl fun y _ => by rw [blk0_read V c t t' ht y]
  exact key ⟨((((cfg1.win 1).blk t).view.emb j) 0).val, ((((cfg1.win 1).blk t).view.emb j) 0).isLt⟩ h0

/-- An index of the output array lies in point t's block iff each coordinate is in the block's range on its axis. -/
theorem mem_blk (t : Fin cfg1.N) (i : S15x8x128.Idx) :
    i ∈ ((cfg1.win 1).blk t).view.set ↔ ∀ a : Fin 3, win1_1.index t a * S1x8x128.size a ≤ (i a).val ∧ (i a).val < win1_1.index t a * S1x8x128.size a + S1x8x128.size a := by
  show i ∈ ((View.whole main_v5).slice (win1_1.rect t)).set ↔ _
  rw [View.set_slice_whole, Rect.mem_set_unit]
  exact Iff.rfl

/-- Every entry of the output array lies in the block of the grid point numbered by its tile. -/
theorem cover (i : S15x8x128.Idx) : ∃ t : Fin cfg1.N, (cfg1.win 1).flush t = true ∧ i ∈ ((cfg1.win 1).blk t).view.set := by
  have hN : grid1.N = 15 := N_1
  have hi0 : (i 0).val < 15 := (i 0).isLt
  have hi1 : (i 1).val < 8 := (i 1).isLt
  have hi2 : (i 2).val < 128 := (i 2).isLt
  let t : Fin cfg1.N := ⟨(i 0).val, by show (i 0).val < grid1.N; omega⟩
  obtain ⟨-, -, e10, e11, e12⟩ := idx_facts t
  have ht : t.val = (i 0).val := rfl
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; rw [e10, ht]; omega
  | ⟨1, _⟩ => show win1_1.index t (1 : Fin 3) * 8 ≤ (i 1).val ∧ (i 1).val < win1_1.index t (1 : Fin 3) * 8 + 8; rw [e11]; omega
  | ⟨2, _⟩ => show win1_1.index t (2 : Fin 3) * 128 ≤ (i 2).val ∧ (i 2).val < win1_1.index t (2 : Fin 3) * 128 + 128; rw [e12]; omega

/-- After the region, its output array holds, in tile t, the sum over the t-th block of 1000 rows of the squared positive
    parts of the input array's entries, at the tile's corner, and zero elsewhere. -/
theorem final (c : Dev nD) :
    (dat1 (F := Ideal) V c).arrAt 1 cfg1.N
      = Cert.Spec.tiles (T := 15) (fun t => ∑ y : S1000x128.Idx,
          Cert.Spec.reluSq (V c main_v1 (Cert.Spec.rowBlk (T := 15) (R := 1000) (C := 128) (N := 15000) rfl t y))) :=
  (dat1 (F := Ideal) V c).arrAt_eq_of_cover 1 (G V c) (fun t _ => flushed_eq V c t) cover

end Cert.KernelIdeal.TilesW

end
-- ==== Proof.TilesD.lean ====
/-
  The third region's output array, read entry by entry.

  The region runs over 64 grid points.  At point t the body reads rows t·64 … t·64 + 63 (all 30000 columns) of the two
  argument matrices, forms the squared difference of corresponding entries, adds these up over the whole block, and
  stores an 8 × 128 tile holding that sum at its corner (0, 0) and zero at every other entry; the tile is written back
  as tile t of the output array.  The steps: the stored tile at an entry (the mask is set exactly at the corner, the
  total over the block with a leading unit axis is the total over the block); where each window's block sits at a
  grid point; each input block's entry as an entry of its argument; what a point writes back as a tile of one
  whole-array function; every entry of the output lies in the tile of its own point; hence the array after the region.
-/
import proofs.«180539_j61460982006014_2_alg».proof.Proof.Gen.KernelIdeal.Frame
import proofs.«180539_j61460982006014_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TilesD

open Cert.KernelIdeal Cert.KernelIdeal.Gen Idealize.ShloMosaic Idealize.ShloMosaic.TcCoe Idealize.SL.Sem
open Idealize.ShloMosaic.ValueIdx
open Idealize.ShloMosaic.Pipeline (Dat)

/-- The total of a rank-3 vector with a leading unit axis, cast from a rank-2 vector, is the total of the rank-2 vector:
    the cast only renames the indices. -/
theorem sum_cast (v : S64x30000.Idx → EReal) (h : S64x30000.ShapeCasts S1x64x30000) :
    ∑ i : S1x64x30000.Idx, shapeCast S1x64x30000 v h i = ∑ y : S64x30000.Idx, v y := by
  unfold shapeCast
  exact Equiv.sum_comp (Shape.reshapeEquiv h) v

/-- A sum into the one-entry vector, with the zero word as accumulator, is the total over the source. -/
theorem reduce_total (src : FVec Ideal S1x64x30000 .f32) (h : S1x64x30000.Reduces [1, 2] S1)
    (hφ : FKind.Formats .f32) (hacc : (0x00000000#32 : BitVec 32) = FKind.add.neutral .f32 hφ) (j : S1.Idx) :
    multiReduction (F := Ideal) .add [1, 2] S1 src 0x00000000#32 h hφ hacc j = ∑ i : S1x64x30000.Idx, src i :=
  Ideal.multiReduction_add_total src _ h (fun b => by fin_cases b; rfl) hφ hacc j

/-- The one entry of a one-entry vector, cast to rank three, extracted and spread over a tile, is that entry everywhere. -/
theorem spread_at (v : S1.Idx → EReal) (h : S1.ShapeCasts S1x1x1) (h' : ∀ a, (![0, 0, 0] : Fin 3 → Nat) a < S1x1x1.size a)
    (i : S8x128.Idx) :
    broadcast S8x128 (extractAt ![0, 0, 0] (shapeCast S1x1x1 v h) h') i = v (Shape.reshapeEquiv h fun a => ⟨![0, 0, 0] a, h' a⟩) := rfl

/-- The two coordinate words of a tile entry compared with zero and conjoined: the bit is set exactly at the corner. -/
theorem corner_bit (r : Fin 8) (l : Fin 128) :
    IntOp.andi (IntOp.cmpi .eq (BitVec.ofNat 32 r.val) 0#32) (IntOp.cmpi .eq (BitVec.ofNat 32 l.val) 0#32)
      = if r.val = 0 ∧ l.val = 0 then 1#1 else 0#1 := by
  revert r l; decide

/-- The mask the body selects by, read at an entry of the tile. -/
theorem mask_at (h0 : S8x128.Iotas .tc 32 [0]) (h1 : S8x128.Iotas .tc 32 [1]) (r : Fin 8) (l : Fin 128) :
    andi (cmpi .eq (iota .tc S8x128 32 [0] h0) (broadcast S8x128 0#32)) (cmpi .eq (iota .tc S8x128 32 [1] h1) (broadcast S8x128 0#32)) (ix2 r l)
      = if r.val = 0 ∧ l.val = 0 then 1#1 else 0#1 := by
  show IntOp.andi (IntOp.cmpi .eq (iota .tc S8x128 32 [0] h0 (ix2 r l)) 0#32) (IntOp.cmpi .eq (iota .tc S8x128 32 [1] h1 (ix2 r l)) 0#32) = _
  rw [iota_single_apply, iota_single_apply]
  exact corner_bit r l

/-- The squared difference of two vectors at an entry. -/
theorem sq_at (x0 x1 : FVec Ideal S64x30000 .f32) (y : S64x30000.Idx) :
    mulf (subf x0 x1) (subf x0 x1) y = Cert.Spec.sqDiff (x0 y) (x1 y) := rfl

/-- The body's stored tile, entry by entry: the block's sum of squared differences at the corner, zero elsewhere. -/
theorem pay_at (x0 x1 : Vec Ideal S64x30000 .f32) (u : Fin 1) (r : Fin 8) (l : Fin 128) :
    k2_pay1 (F := Ideal) x0 x1 (ix3 u r l)
      = if r.val = 0 ∧ l.val = 0 then ∑ y : S64x30000.Idx, Cert.Spec.sqDiff (x0 y) (x1 y) else 0 := by
  unfold k2_pay1
  dsimp only
  refine (shapeCast_ab_1ab_apply _ _ u r l).trans ?_
  refine (select_apply _ _ _ _).trans ?_
  refine (congrArg (fun b => Scalar.select b _ _) (mask_at _ _ r l)).trans ?_
  by_cases hc : r.val = 0 ∧ l.val = 0
  · rw [if_pos hc, if_pos hc]
    refine (select_one _ _).trans ?_
    refine (spread_at _ _ _ _).trans ?_
    refine (reduce_total _ _ (.inl rfl) rfl _).trans ?_
    refine (sum_cast _ _).trans ?_
    exact Finset.sum_congr rfl fun y _ => sq_at x0 x1 y
  · rw [if_neg hc, if_neg hc]
    refine (select_zero _ _).trans ?_
    exact (broadcast_apply _ _).trans Ideal.ofBits_zero_f32

/-- The stored tile at any of its entries. -/
theorem pay_idx (x0 x1 : Vec Ideal S64x30000 .f32) (j : S1x8x128.Idx) :
    k2_pay1 (F := Ideal) x0 x1 j
      = if (j 1).val = 0 ∧ (j 2).val = 0 then ∑ y : S64x30000.Idx, Cert.Spec.sqDiff (x0 y) (x1 y) else 0 := by
  obtain ⟨u, r, l, rfl⟩ : ∃ (u : Fin 1) (r : Fin 8) (l : Fin 128), j = ix3 u r l := ⟨j 0, j 1, j 2, eq_ix3 j⟩
  exact pay_at x0 x1 u r l

theorem hz2 : (![0, 0] : Fin 2 → Nat) = fun _ => 0 := funext fun a => by fin_cases a <;> rfl
theorem hz3 : (![0, 0, 0] : Fin 3 → Nat) = fun _ => 0 := funext fun a => by fin_cases a <;> rfl

/-- Where the windows' blocks sit at each grid point: both inputs' block t starts at row block t, column block 0; the output's
    block t is tile t. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

variable (V : (c : Dev nD) → (b : Ref sig .tc) → Buf (Elt Ideal) ((c : Thread nD τ).loc b))

/-- Entry y of the first input's block at point t is the first argument at row t·64 + y₀, column y₁. -/
theorem blk0_read (c : Dev nD) (t : Fin cfg2.N) (t' : Fin 64) (ht : t'.val = t.val) (y : S64x30000.Idx) :
    iblk2 (F := Ideal) V c 0 t y = V c main_arg0 (Cert.Spec.rowBlk (T := 64) (R := 64) (C := 30000) (N := 4096) rfl t' y) := by
  obtain ⟨e00, e01, -⟩ := idx_facts t
  unfold iblk2
  show V c main_arg0 (((cfg2.win 0).blk t).view.emb y) = V c main_arg0 _
  refine congrArg (V c main_arg0) (funext fun a => Fin.ext ?_)
  match a with
  | ⟨0, _⟩ => show win2_0.index t (0 : Fin 2) * 64 + 1 * (y 0).val = t'.val * 64 + (y 0).val; rw [e00, ht]; omega
  | ⟨1, _⟩ => show win2_0.index t (1 : Fin 2) * 30000 + 1 * (y 1).val = (y 1).val; rw [e01]; omega

/-- Entry y of the second input's block at point t is the second argument at row t·64 + y₀, column y₁. -/
theorem blk1_read (c : Dev nD) (t : Fin cfg2.N) (t' : Fin 64) (ht : t'.val = t.val) (y : S64x30000.Idx) :
    iblk2 (F := Ideal) V c 1 t y = V c main_arg1 (Cert.Spec.rowBlk (T := 64) (R := 64) (C := 30000) (N := 4096) rfl t' y) := by
  obtain ⟨-, -, e10, e11, -⟩ := idx_facts t
  unfold iblk2
  show V c main_arg1 (((cfg2.win 1).blk t).view.emb y) = V c main_arg1 _
  refine congrArg (V c main_arg1) (funext fun a => Fin.ext ?_)
  match a with
  | ⟨0, _⟩ => show win2_1.index t (0 : Fin 2) * 64 + 1 * (y 0).val = t'.val * 64 + (y 0).val; rw [e10, ht]; omega
  | ⟨1, _⟩ => show win2_1.index t (1 : Fin 2) * 30000 + 1 * (y 1).val = (y 1).val; rw [e11]; omega

/-- The whole output array: tile t holds the sum of squared differences over rows t·64 … t·64 + 63. -/
abbrev G (c : Dev nD) : S64x8x128.Idx → EReal :=
  Cert.Spec.tiles (T := 64) (fun t => ∑ y : S64x30000.Idx,
    Cert.Spec.sqDiff (V c main_arg0 (Cert.Spec.rowBlk (T := 64) (R := 64) (C := 30000) (N := 4096) rfl t y))
                     (V c main_arg1 (Cert.Spec.rowBlk (T := 64) (R := 64) (C := 30000) (N := 4096) rfl t y)))

/-- What grid point t writes back is tile t of that array. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz3]
  simp only [View.ld_unit_zero (S := S64x30000) hz2]
  obtain ⟨-, -, -, -, e20, e21, e22⟩ := idx_facts t
  funext j
  show k2_pay1 (F := Ideal) (iblk2 V c 0 t) (iblk2 V c 1 t) j = G V c (((cfg2.win 2).blk t).view.emb j)
  refine (pay_idx (iblk2 V c 0 t) (iblk2 V c 1 t) j).trans ?_
  have hj0 : (j 0).val < 1 := (j 0).isLt
  have h0 : ((((cfg2.win 2).blk t).view.emb j) 0).val = t.val := by
    show win2_2.index t (0 : Fin 3) * 1 + 1 * (j 0).val = t.val
    rw [e20]; omega
  have h1 : ((((cfg2.win 2).blk t).view.emb j) 1).val = (j 1).val := by
    show win2_2.index t (1 : Fin 3) * 8 + 1 * (j 1).val = (j 1).val
    rw [e21]; omega
  have h2 : ((((cfg2.win 2).blk t).view.emb j) 2).val = (j 2).val := by
    show win2_2.index t (2 : Fin 3) * 128 + 1 * (j 2).val = (j 2).val
    rw [e22]; omega
  unfold G Cert.Spec.tiles
  show _ = if ((((cfg2.win 2).blk t).view.emb j) 1).val = 0 ∧ ((((cfg2.win 2).blk t).view.emb j) 2).val = 0 then _ else 0
  rw [h1, h2]
  refine if_congr Iff.rfl ?_ rfl
  have key : ∀ t' : Fin 64, t'.val = t.val →
      (∑ y : S64x30000.Idx, Cert.Spec.sqDiff (iblk2 (F := Ideal) V c 0 t y) (iblk2 (F := Ideal) V c 1 t y))
        = ∑ y : S64x30000.Idx,
            Cert.Spec.sqDiff (V c main_arg0 (Cert.Spec.rowBlk (T := 64) (R := 64) (C := 30000) (N := 4096) rfl t' y))
                             (V c main_arg1 (Cert.Spec.rowBlk (T := 64) (R := 64) (C := 30000) (N := 4096) rfl t' y)) :=
    fun t' ht => Finset.sum_congr rfl fun y _ => by rw [blk0_read V c t t' ht y, blk1_read V c t t' ht y]
  exact key ⟨((((cfg2.win 2).blk t).view.emb j) 0).val, ((((cfg2.win 2).blk t).view.emb j) 0).isLt⟩ h0

/-- An index of the output array lies in point t's block iff each coordinate is in the block's range on its axis. -/
theorem mem_blk (t : Fin cfg2.N) (i : S64x8x128.Idx) :
    i ∈ ((cfg2.win 2).blk t).view.set ↔ ∀ a : Fin 3, win2_2.index t a * S1x8x128.size a ≤ (i a).val ∧ (i a).val < win2_2.index t a * S1x8x128.size a + S1x8x128.size a := by
  show i ∈ ((View.whole main_v54).slice (win2_2.rect t)).set ↔ _
  rw [View.set_slice_whole, Rect.mem_set_unit]
  exact Iff.rfl

/-- Every entry of the output array lies in the block of the grid point numbered by its tile. -/
theorem cover (i : S64x8x128.Idx) : ∃ t : Fin cfg2.N, (cfg2.win 2).flush t = true ∧ i ∈ ((cfg2.win 2).blk t).view.set := by
  have hN : grid2.N = 64 := N_2
  have hi0 : (i 0).val < 64 := (i 0).isLt
  have hi1 : (i 1).val < 8 := (i 1).isLt
  have hi2 : (i 2).val < 128 := (i 2).isLt
  let t : Fin cfg2.N := ⟨(i 0).val, by show (i 0).val < grid2.N; omega⟩
  obtain ⟨-, -, -, -, e20, e21, e22⟩ := idx_facts t
  have ht : t.val = (i 0).val := rfl
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; rw [e20, ht]; omega
  | ⟨1, _⟩ => show win2_2.index t (1 : Fin 3) * 8 ≤ (i 1).val ∧ (i 1).val < win2_2.index t (1 : Fin 3) * 8 + 8; rw [e21]; omega
  | ⟨2, _⟩ => show win2_2.index t (2 : Fin 3) * 128 ≤ (i 2).val ∧ (i 2).val < win2_2.index t (2 : Fin 3) * 128 + 128; rw [e22]; omega

/-- After the region, its output array holds, in tile t, the sum over the t-th block of 64 rows of the squared differences
    of the two arguments' entries, at the tile's corner, and zero elsewhere. -/
theorem final (c : Dev nD) :
    (dat2 (F := Ideal) V c).arrAt 2 cfg2.N
      = Cert.Spec.tiles (T := 64) (fun t => ∑ y : S64x30000.Idx,
          Cert.Spec.sqDiff (V c main_arg0 (Cert.Spec.rowBlk (T := 64) (R := 64) (C := 30000) (N := 4096) rfl t y))
                           (V c main_arg1 (Cert.Spec.rowBlk (T := 64) (R := 64) (C := 30000) (N := 4096) rfl t y))) :=
  (dat2 (F := Ideal) V c).arrAt_eq_of_cover 2 (G V c) (fun t _ => flushed_eq V c t) cover

end Cert.KernelIdeal.TilesD

end
-- ==== Proof.Bridge.lean ====
/-
  The two programs compute one function.  The kernel's three regions leave arrays of tiles whose host sums are the sums,
  block of rows by block of rows, of the squared positive parts of the two parameter matrices (each re-laid as rows of
  128, which only re-indexes the sum) and of the squared differences of the two big matrices; block by block is the
  whole matrix, so these are the sums under the reference's three norms.  The word vectors the kernel looks up as rows
  of the transposed matrix are the columns the reference looks up.  Everything else is the same operations in the same
  order, so the returned scalars agree.
-/
import proofs.«180539_j61460982006014_2_alg».proof.Proof.KernelValue
import proofs.«180539_j61460982006014_2_alg».proof.Proof.SumLaws
import proofs.«180539_j61460982006014_2_alg».proof.Proof.RefNorms
import proofs.«180539_j61460982006014_2_alg».proof.Proof.WordRows
import proofs.«180539_j61460982006014_2_alg».proof.Proof.TilesE
import proofs.«180539_j61460982006014_2_alg».proof.Proof.TilesW
import proofs.«180539_j61460982006014_2_alg».proof.Proof.TilesD

set_option maxRecDepth 16384

noncomputable section

namespace Cert.KernelIdeal.Bridge

open Cert.KernelIdeal Cert.KernelIdeal.Gen Cert.KernelIdeal.Boundary
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The three sums of squares -/

/-- The host's sum of the first region's tiles is the sum under the reference's norm of the entity matrix. -/
theorem sumE (c : Dev nD) :
    Host.reduceAdd (F := Ideal) ((dat0 (V1 m ρ) c).arrAt 1 cfg0.N) (constant (F := Ideal) S_ .f32 0x00000000#32) reducesTo_S20x8x128_S_d0_1_2 h_S_
      = Cert.ReferenceIdeal.Read.val_main_call1_v1 (F := Ideal) (m ((c : Thread nD τ).loc main_arg3)) := by
  rw [Cert.KernelIdeal.TilesE.final (V1 m ρ) c, Cert.Spec.hostSum_tiles, Cert.ReferenceIdeal.NormRead.normE]
  funext _
  rw [show V1 m ρ c main_v0 = _ from W1_v0 m ρ c]
  exact (Cert.Spec.sum_rowBlk (T := 20) (R := 5000) (C := 128) (N := 100000) rfl
      (fun p => Cert.Spec.reluSq (shapeCast S100000x128 ((m ((c : Thread nD τ).loc main_arg3)) : (⟨S200000x64, .f32⟩ : BufTy).Contents (Elt Ideal)) shapeCasts_S200000x64_S100000x128 p))).trans
    (Cert.Spec.sum_shapeCast shapeCasts_S200000x64_S100000x128 _ Cert.Spec.reluSq)

/-- The host's sum of the second region's tiles is the sum under the reference's norm of the word matrix. -/
theorem sumW (c : Dev nD) :
    Host.reduceAdd (F := Ideal) ((dat1 (V3 m ρ) c).arrAt 1 cfg1.N) (constant (F := Ideal) S_ .f32 0x00000000#32) reducesTo_S15x8x128_S_d0_1_2 h_S_
      = Cert.ReferenceIdeal.Read.val_main_call3_v1 (F := Ideal) (m ((c : Thread nD τ).loc main_arg4)) := by
  rw [Cert.KernelIdeal.TilesW.final (V3 m ρ) c, Cert.Spec.hostSum_tiles, Cert.ReferenceIdeal.NormRead.normW]
  funext _
  rw [show V3 m ρ c main_v1 = _ from W3_v1 m ρ c]
  exact (Cert.Spec.sum_rowBlk (T := 15) (R := 1000) (C := 128) (N := 15000) rfl
      (fun p => Cert.Spec.reluSq (shapeCast S15000x128 ((m ((c : Thread nD τ).loc main_arg4)) : (⟨S64x30000, .f32⟩ : BufTy).Contents (Elt Ideal)) shapeCasts_S64x30000_S15000x128 p))).trans
    (Cert.Spec.sum_shapeCast shapeCasts_S64x30000_S15000x128 _ Cert.Spec.reluSq)

/-- The host's sum of the third region's tiles is the sum under the reference's norm of the difference. -/
theorem sumD (c : Dev nD) :
    Host.reduceAdd (F := Ideal) ((dat2 (V5 m ρ) c).arrAt 2 cfg2.N) (constant (F := Ideal) S_ .f32 0x00000000#32) reducesTo_S64x8x128_S_d0_1_2 h_S_
      = Cert.ReferenceIdeal.Read.val_main_call4_v1 (F := Ideal) (m ((c : Thread nD τ).loc main_arg0)) (m ((c : Thread nD τ).loc main_arg1)) := by
  rw [Cert.KernelIdeal.TilesD.final (V5 m ρ) c, Cert.Spec.hostSum_tiles, Cert.ReferenceIdeal.NormRead.normD]
  funext _
  rw [show V5 m ρ c main_arg0 = _ from W5_arg0 m ρ c, show V5 m ρ c main_arg1 = _ from W5_arg1 m ρ c]
  exact Cert.Spec.sum_rowBlk (T := 64) (R := 64) (C := 30000) (N := 4096) rfl
      (fun p => Cert.Spec.sqDiff (((m ((c : Thread nD τ).loc main_arg0)) : (⟨S4096x30000, .f32⟩ : BufTy).Contents (Elt Ideal)) p) (((m ((c : Thread nD τ).loc main_arg1)) : (⟨S4096x30000, .f32⟩ : BufTy).Contents (Elt Ideal)) p))

/-! ## The word vectors -/

/-- The pairwise-distance chain on the kernel's lookups is the reference's word penalty. -/
theorem word_eq (c : Dev nD) :
    simPen (F := Ideal)
        (Host.gather gather_S30000x64_S4096x1_S4096x64_1_0_n_n_0_1_164
          (transpose S30000x64 [1, 0] (m ((c : Thread nD τ).loc main_arg4)) transposes_S64x30000_S30000x64_1_0)
          (Cert.ReferenceIdeal.Read.val_main_v32 (F := Ideal) (m ((c : Thread nD τ).loc main_arg8))))
        (Host.gather gather_S30000x64_S4096x32x1_S4096x32x64_2_0_n_n_0_2_164
          (transpose S30000x64 [1, 0] (m ((c : Thread nD τ).loc main_arg4)) transposes_S64x30000_S30000x64_1_0)
          (Cert.ReferenceIdeal.Read.val_main_v40 (F := Ideal) (m ((c : Thread nD τ).loc main_arg10))))
        (m ((c : Thread nD τ).loc main_arg6))
      = Cert.ReferenceIdeal.Read.val_main_v50 (F := Ideal) (m ((c : Thread nD τ).loc main_arg4)) (m ((c : Thread nD τ).loc main_arg6)) (m ((c : Thread nD τ).loc main_arg8)) (m ((c : Thread nD τ).loc main_arg10)) := by
  rw [Cert.WordRows.rows_eq, Cert.WordRows.nbrs_eq]
  rfl

/-! ## The returned scalar -/

/-- The kernel program's returned scalar is the reference's last stage at the same arguments. -/
theorem result_eq (c : Dev nD) : W7 m ρ c (Proc.devRef .tc main_v68)
    = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W7_v68 m ρ c, sumD m ρ c, sumE m ρ c, sumW m ρ c, word_eq m c]
  rfl

end Cert.KernelIdeal.Bridge

end
-- ==== Proof.lean ====
/-
  The certificate.  The kernel program computes a loss in four parts: the Euclidean norm of the difference of two
  4096 × 30000 matrices, two similarity penalties (weighted sums of Euclidean distances between looked-up rows), and
  the sum of the Euclidean norms of the positive parts of two parameter matrices.  The three norms are computed by
  three kernels that each sum squares block by block into tiles which the host adds up; the reference computes the same
  loss with whole-array operations.

  Frames: the word-level and the idealized kernel program by their generated frame certificates; the reference by its
  generated run with the result dropped.  The idealization rewrote nothing, so there is nothing to preserve.  The
  algebraic claim: the kernel program's run with its result named (KernelRun), that result as one term of the launch
  memory (Boundary, KernelValue), and the identification of that term with the reference's last stage (Bridge: sums
  of tiles are sums over the whole matrices; a re-laid matrix has the same sum; rows of the transposed word matrix are
  columns of the word matrix).
-/
import proofs.«180539_j61460982006014_2_alg».proof.Defs
import proofs.«180539_j61460982006014_2_alg».proof.Proof.Gen.Kernel
import proofs.«180539_j61460982006014_2_alg».proof.Proof.Gen.Kernel.Skeleton
import proofs.«180539_j61460982006014_2_alg».proof.Proof.Gen.Kernel.Launch
import proofs.«180539_j61460982006014_2_alg».proof.Proof.Gen.Kernel.Points
import proofs.«180539_j61460982006014_2_alg».proof.Proof.Gen.Kernel.Frame
import proofs.«180539_j61460982006014_2_alg».proof.Proof.Gen.KernelIdeal
import proofs.«180539_j61460982006014_2_alg».proof.Proof.Gen.KernelIdeal.Skeleton
import proofs.«180539_j61460982006014_2_alg».proof.Proof.Gen.KernelIdeal.Launch
import proofs.«180539_j61460982006014_2_alg».proof.Proof.Gen.KernelIdeal.Points
import proofs.«180539_j61460982006014_2_alg».proof.Proof.Gen.KernelIdeal.Frame
import proofs.«180539_j61460982006014_2_alg».proof.Proof.Gen.ReferenceIdeal
import proofs.«180539_j61460982006014_2_alg».proof.Proof.Gen.Pre_finite_inputs
import proofs.«180539_j61460982006014_2_alg».proof.Proof.Gen.ReferenceIdeal.Run
import proofs.«180539_j61460982006014_2_alg».proof.Proof.Gen.ReferenceIdeal.Read
import proofs.«180539_j61460982006014_2_alg».proof.Proof.KernelRun
import proofs.«180539_j61460982006014_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end, the kernel program with its result at the last
    boundary's contents, the reference with its result at its last stage of the same arguments: one scalar. -/
theorem algebraic : Cert.algebraic_KernelIdeal_ReferenceIdeal := by
  intro m ρ m' ρ' _ hagree
  refine ⟨fun c => Cert.KernelIdeal.Gen.W7 m ρ c (Proc.devRef .tc Cert.KernelIdeal.main_v68),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v64_eq, h0, h1, h2, h3, h4, h5, h6, h7, h8, h9, h10]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
